-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S2x800000 : Shape := ⟨2, ![2, 800000]⟩
abbrev S128x96 : Shape := ⟨2, ![128, 96]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S128x96 : S_.BroadcastsInDim S128x96 (![] : Fin 0 → Fin S128x96.rank)
  reducesTo_S128x96_S_d0_1 : S128x96.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x128 .f32) (main_arg6 : FVec F S64 .f32) (main_arg7 : FVec F S64x128 .f32) (main_v13 : IVec S_ 1) (main_v16 : IVec S128x96 1) : IVec S_ 1 :=
  let main_c_5 : IVec S_ 1 := constantI S_ 1 1#1
  let main_v17 : IVec S_ 1 := (fun x v => Host.reduce IntOp.andi x v reducesTo_S128x96_S_d0_1 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x128 .f32 := Host.absf main_arg7
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  main_v33

def fn {F : FTy → Type} [FloatOps F] (main_arg0 : FVec F S50000x96 .f32) (main_arg1 : IVec S2x800000 32) (main_arg2 : FVec F S128x96 .f32) (main_arg3 : FVec F S128 .f32) (main_arg4 : FVec F S128x96 .f32) (main_arg5 : FVec F S64x128 .f32) (main_arg6 : FVec F S64 .f32) (main_arg7 : FVec F S64x128 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S128x96 .f32 := Host.absf main_arg2
  let main_cst_0 : FVec F S_ .f32 := constant S_ .f32 0x7F800000#32
  let main_v5 : FVec F S128x96 .f32 := broadcastInDim S128x96 ![] bcast_S_S128x96 main_cst_0
  let main_v6 : IVec S128x96 1 := cmpf .olt main_v4 main_v5
  let main_c_1 : IVec S_ 1 := constantI S_ 1 1#1
  let main_v7 : IVec S_ 1 := (fun x v => Host.reduce IntOp.andi x v reducesTo_S128x96_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x96 .f32 := Host.absf main_arg4
  let main_cst_4 : FVec F S_ .f32 := constant S_ .f32 0x7F800000#32
  let main_v15 : FVec F S128x96 .f32 := broadcastInDim S128x96 ![] bcast_S_S128x96 main_cst_4
  let main_v16 : IVec S128x96 1 := cmpf .olt main_v14 main_v15
  fn_part1 (F := F) main_arg5 main_arg6 main_arg7 main_v13 main_v16
-- ==== Kernel.lean ====
abbrev S50000x96 : Shape := ⟨2, ![50000, 96]⟩
abbrev S2x800000 : Shape := ⟨2, ![2, 800000]⟩
abbrev S128x96 : Shape := ⟨2, ![128, 96]⟩
abbrev S128 : Shape := ⟨1, ![128]⟩
abbrev S64x128 : Shape := ⟨2, ![64, 128]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x96 : Shape := ⟨2, ![800000, 96]⟩
abbrev S96x128 : Shape := ⟨2, ![96, 128]⟩
abbrev S128x64 : Shape := ⟨2, ![128, 64]⟩
abbrev S1x128 : Shape := ⟨2, ![1, 128]⟩
abbrev S50000x128 : Shape := ⟨2, ![50000, 128]⟩
abbrev S50000x64 : Shape := ⟨2, ![50000, 64]⟩
abbrev S5000x96 : Shape := ⟨2, ![5000, 96]⟩
abbrev S5000x128 : Shape := ⟨2, ![5000, 128]⟩
abbrev S5000x64 : Shape := ⟨2, ![5000, 64]⟩
abbrev S800000x64 : Shape := ⟨2, ![800000, 64]⟩
abbrev S1x64 : Shape := ⟨2, ![1, 64]⟩

abbrev nBuf : Space → Nat
  | .hbm => 52
  | .vmem => 20
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S128x96, .f32⟩
  | .hbm, ⟨3, _⟩ => ⟨S128, .f32⟩
  | .hbm, ⟨4, _⟩ => ⟨S128x96, .f32⟩
  | .hbm, ⟨5, _⟩ => ⟨S64x128, .f32⟩
  | .hbm, ⟨6, _⟩ => ⟨S64, .f32⟩
  | .hbm, ⟨7, _⟩ => ⟨S64x128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x96, .f32⟩
  | .hbm, ⟨26, _⟩ => ⟨S_, .f32⟩
  | .hbm, ⟨27, _⟩ => ⟨S50000x96, .f32⟩
  | .hbm, ⟨28, _⟩ => ⟨S800000x1, .i32⟩
  | .hbm, ⟨29, _⟩ => ⟨S50000x96, .f32⟩
  | .hbm, ⟨30, _⟩ => ⟨S96x128, .f32⟩
  | .hbm, ⟨31, _⟩ => ⟨S96x128, .f32⟩
  | .hbm, ⟨32, _⟩ => ⟨S128x64, .f32⟩
  | .hbm, ⟨33, _⟩ => ⟨S1x128, .f32⟩
  | .hbm, ⟨34, _⟩ => ⟨S50000x128, .f32⟩
  | .hbm, ⟨35, _⟩ => ⟨S50000x64, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x64, .f32⟩
  | .hbm, ⟨45, _⟩ => ⟨S_, .f32⟩
  | .hbm, ⟨46, _⟩ => ⟨S50000x64, .f32⟩
  | .hbm, ⟨47, _⟩ => ⟨S800000x1, .i32⟩
  | .hbm, ⟨48, _⟩ => ⟨S50000x64, .f32⟩
  | .hbm, ⟨49, _⟩ => ⟨S128x64, .f32⟩
  | .hbm, ⟨50, _⟩ => ⟨S1x64, .f32⟩
  | .hbm, ⟨51, _⟩ => ⟨S50000x64, .f32⟩
  | .local _ .vmem, ⟨0, _⟩ => ⟨S5000x96, .f32⟩
  | .local _ .vmem, ⟨1, _⟩ => ⟨S5000x96, .f32⟩
  | .local _ .vmem, ⟨2, _⟩ => ⟨S5000x96, .f32⟩
  | .local _ .vmem, ⟨3, _⟩ => ⟨S5000x96, .f32⟩
  | .local _ .vmem, ⟨4, _⟩ => ⟨S96x128, .f32⟩
  | .local _ .vmem, ⟨5, _⟩ => ⟨S96x128, .f32⟩
  | .local _ .vmem, ⟨6, _⟩ => ⟨S1x128, .f32⟩
  | .local _ .vmem, ⟨7, _⟩ => ⟨S128x64, .f32⟩
  | .local _ .vmem, ⟨8, _⟩ => ⟨S5000x128, .f32⟩
  | .local _ .vmem, ⟨9, _⟩ => ⟨S5000x128, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x128, .f32⟩
  | .local _ .vmem, ⟨15, _⟩ => ⟨S5000x128, .f32⟩
  | .local _ .vmem, ⟨16, _⟩ => ⟨S128x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_c_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20_0 : Ref sig .tc := ⟨.hbm, 34, rfl⟩
abbrev main_v20_1 : Ref sig .tc := ⟨.hbm, 35, rfl⟩
abbrev main_c_2 : Ref sig .tc := ⟨.hbm, 36, rfl⟩
abbrev main_v21 : Ref sig .tc := ⟨.hbm, 37, rfl⟩
abbrev main_v22 : Ref sig .tc := ⟨.hbm, 38, rfl⟩
abbrev main_c_3 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg4_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S96x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S96x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S5000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  transposes_S128x96_S96x128_1_0 : S128x96.Transposes [1, 0] S96x128
  transposes_S64x128_S128x64_1_0 : S64x128.Transposes [1, 0] S128x64
  shapeCasts_S128_S1x128 : S128.ShapeCasts S1x128
  inb_S5000x96_S5000x96_0_0 : ∀ a, (![0, 0] : Fin 2 → Nat) a + S5000x96.size a ≤ S5000x96.size a
  h_S5000x96 : 0 < S5000x96.numel
  shapeCasts_S5000x96_S5000x96 : S5000x96.ShapeCasts S5000x96
  bitsLt_bf16_f32 : FTy.bits .bf16 < FTy.bits .f32
  inb_S96x128_S96x128_0_0 : ∀ a, (![0, 0] : Fin 2 → Nat) a + S96x128.size a ≤ S96x128.size a
  h_S96x128 : 0 < S96x128.numel
  shapeCasts_S96x128_S96x128 : S96x128.ShapeCasts S96x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S5000x64_S5000x64_0_0 : ∀ a, (![0, 0] : Fin 2 → Nat) a + S5000x64.size a ≤ S5000x64.size a
  h_S5000x64 : 0 < S5000x64.numel
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  shapeCasts_S5000x128_S5000x128 : S5000x128.ShapeCasts S5000x128
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S5000x96_S96x128_S5000x128_1_0_0_1_n_n_wf : DotDims.WF S5000x96 S96x128 S5000x128 [1] [0] [0] [1] [] []
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x96.size a ≤ S50000x96.size a
  hwx0_0 : ∀ i : grid0.Coords, EltTy.bits .f32 = 32 ∨ (Rect.block (s := S50000x96) S5000x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x96.size a ≤ S50000x96.size a
  hwx0_1 : ∀ i : grid0.Coords, EltTy.bits .f32 = 32 ∨ (Rect.block (s := S50000x96) S5000x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S96x128.size a ≤ S96x128.size a
  hwx0_2 : ∀ i : grid0.Coords, EltTy.bits .f32 = 32 ∨ (Rect.block (s := S96x128) S96x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S96x128.size a ≤ S96x128.size a
  hwx0_3 : ∀ i : grid0.Coords, EltTy.bits .f32 = 32 ∨ (Rect.block (s := S96x128) S96x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x64.size a ≤ S50000x64.size a
  hwx0_7 : ∀ i : grid0.Coords, EltTy.bits .f32 = 32 ∨ (Rect.block (s := S50000x64) S5000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S50000x64.size a
  hwx1_4 : ∀ i : grid1.Coords, EltTy.bits .f32 = 32 ∨ (Rect.block (s := S50000x64) S5000x64.size (cc1_transform_4 i) (hinb1_4 i)).WholeWords (EltTy.packing .f32)

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S5000x96_S96x128_S5000x128_1_0_0_1_n_n : DotDims S5000x96 S96x128 S5000x128 where
  lhsContracting := [1]
  rhsContracting := [0]
  lhsNonContracting := [0]
  rhsNonContracting := [1]
  lhsBatch := []
  rhsBatch := []
  wf := dot_S5000x96_S96x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_v15) S5000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S96x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S96x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20_0) S5000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v20_1) S5000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v30) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20_0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x96 : Shape := ⟨2, ![50000, 96]⟩
abbrev S2x800000 : Shape := ⟨2, ![2, 800000]⟩
abbrev S128x96 : Shape := ⟨2, ![128, 96]⟩
abbrev S128 : Shape := ⟨1, ![128]⟩
abbrev S64x128 : Shape := ⟨2, ![64, 128]⟩
abbrev S64 : Shape := ⟨1, ![64]⟩
abbrev S1x800000 : Shape := ⟨2, ![1, 800000]⟩
abbrev S800000 : Shape := ⟨1, ![800000]⟩
abbrev S800000x1 : Shape := ⟨2, ![800000, 1]⟩
abbrev S_ : Shape := ⟨0, ![]⟩
abbrev S800000x96 : Shape := ⟨2, ![800000, 96]⟩
abbrev S96x128 : Shape := ⟨2, ![96, 128]⟩
abbrev S50000x128 : Shape := ⟨2, ![50000, 128]⟩
abbrev S1x128 : Shape := ⟨2, ![1, 128]⟩
abbrev S800000x128 : Shape := ⟨2, ![800000, 128]⟩
abbrev S128x64 : Shape := ⟨2, ![128, 64]⟩
abbrev S50000x64 : Shape := ⟨2, ![50000, 64]⟩
abbrev S1x64 : Shape := ⟨2, ![1, 64]⟩

abbrev nBuf : Space → Nat
  | .hbm => 64
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S128x96, .f32⟩
  | .hbm, ⟨3, _⟩ => ⟨S128, .f32⟩
  | .hbm, ⟨4, _⟩ => ⟨S128x96, .f32⟩
  | .hbm, ⟨5, _⟩ => ⟨S64x128, .f32⟩
  | .hbm, ⟨6, _⟩ => ⟨S64, .f32⟩
  | .hbm, ⟨7, _⟩ => ⟨S64x128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S800000, .i1⟩
  | .hbm, ⟨13, _⟩ => ⟨S800000, .f32⟩
  | .hbm, ⟨14, _⟩ => ⟨S800000x1, .f32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x96, .f32⟩
  | .hbm, ⟨24, _⟩ => ⟨S800000x96, .f32⟩
  | .hbm, ⟨25, _⟩ => ⟨S800000x96, .f32⟩
  | .hbm, ⟨26, _⟩ => ⟨S_, .f32⟩
  | .hbm, ⟨27, _⟩ => ⟨S50000x96, .f32⟩
  | .hbm, ⟨28, _⟩ => ⟨S800000x1, .i32⟩
  | .hbm, ⟨29, _⟩ => ⟨S50000x96, .f32⟩
  | .hbm, ⟨30, _⟩ => ⟨S96x128, .f32⟩
  | .hbm, ⟨31, _⟩ => ⟨S50000x128, .f32⟩
  | .hbm, ⟨32, _⟩ => ⟨S1x128, .f32⟩
  | .hbm, ⟨33, _⟩ => ⟨S50000x128, .f32⟩
  | .hbm, ⟨34, _⟩ => ⟨S50000x128, .f32⟩
  | .hbm, ⟨35, _⟩ => ⟨S96x128, .f32⟩
  | .hbm, ⟨36, _⟩ => ⟨S50000x128, .f32⟩
  | .hbm, ⟨37, _⟩ => ⟨S50000x128, .f32⟩
  | .hbm, ⟨38, _⟩ => ⟨S_, .f32⟩
  | .hbm, ⟨39, _⟩ => ⟨S50000x128, .f32⟩
  | .hbm, ⟨40, _⟩ => ⟨S50000x128, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x128, .f32⟩
  | .hbm, ⟨50, _⟩ => ⟨S800000x128, .f32⟩
  | .hbm, ⟨51, _⟩ => ⟨S800000x128, .f32⟩
  | .hbm, ⟨52, _⟩ => ⟨S_, .f32⟩
  | .hbm, ⟨53, _⟩ => ⟨S50000x128, .f32⟩
  | .hbm, ⟨54, _⟩ => ⟨S800000x1, .i32⟩
  | .hbm, ⟨55, _⟩ => ⟨S50000x128, .f32⟩
  | .hbm, ⟨56, _⟩ => ⟨S128x64, .f32⟩
  | .hbm, ⟨57, _⟩ => ⟨S50000x64, .f32⟩
  | .hbm, ⟨58, _⟩ => ⟨S1x64, .f32⟩
  | .hbm, ⟨59, _⟩ => ⟨S50000x64, .f32⟩
  | .hbm, ⟨60, _⟩ => ⟨S50000x64, .f32⟩
  | .hbm, ⟨61, _⟩ => ⟨S128x64, .f32⟩
  | .hbm, ⟨62, _⟩ => ⟨S50000x64, .f32⟩
  | .hbm, ⟨63, _⟩ => ⟨S50000x64, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_call0_cst : Ref sig .tc := ⟨.hbm, 38, rfl⟩
abbrev main_call0_v0 : Ref sig .tc := ⟨.hbm, 39, rfl⟩
abbrev main_v27 : Ref sig .tc := ⟨.hbm, 40, rfl⟩
abbrev main_c_1 : Ref sig .tc := ⟨.hbm, 41, rfl⟩
abbrev main_v28 : Ref sig .tc := ⟨.hbm, 42, rfl⟩
abbrev main_v29 : Ref sig .tc := ⟨.hbm, 43, rfl⟩
abbrev main_c_2 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_3 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  transposes_S128x96_S96x128_1_0 : S128x96.Transposes [1, 0] S96x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S800000x1_S800000x128_0_1 : S800000x1.BroadcastsInDim S800000x128 (![0, 1] : Fin 2 → Fin S800000x128.rank)
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S50000x96_S96x128_S50000x128_1_0_0_1_n_n_wf : DotDims.WF S50000x96 S96x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x96_S96x128_S50000x128_1_0_0_1_n_n : DotDims S50000x96 S96x128 S50000x128 where
  lhsContracting := [1]
  rhsContracting := [0]
  lhsNonContracting := [0]
  rhsNonContracting := [1]
  lhsBatch := []
  rhsBatch := []
  wf := dot_S50000x96_S96x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The idealized kernel's run with its result array named.

  @main is six segments: three stretches of host operations, the first pallas_call, one more stretch, the second
  pallas_call. The buffer contents at each boundary are a fold from the launch memory: a stretch applies its
  operations' pure functions, a pallas_call replaces each of its arrays by what its write-backs leave. Every weakly
  fair execution ends with every unscoped buffer at the last fold's contents; read at the result buffer that is the
  second pallas_call's output array after its last grid point, and read at an argument it is the launch contents.
-/
import proofs.«109176_j68865505624262_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the arguments as launched. -/
theorem run_result : θ_run defs (onTc (τ := τ) (main (F := F))) ⟨m, fun _ => 0, ρ⟩ (fun r => ∀ c : Dev nD,
      r.2.mem ((c.tc : Thread nD τ).loc main_v33) = W6 m ρ c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v33 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.KernelIdeal.Hand

end
-- ==== Proof.LibPlainDot.lean ====
/-
  A plain matrix product read at an index.

  For the dimension numbers of an `M x K` by `K x N` product (contract the left operand's columns with the right
  operand's rows, no batch axis) the contraction index is one coordinate `k < K`, the left operand is read at
  `(row, k)` and the right at `(k, column)`. So at the ideal instance both the matrix unit's product into a zero
  accumulator and the host's `dot_general` are, at output index `(r, c)`, the sum over `k` of `l (r, k) * r (k, c)`.
-/
import Idealize.ShloMosaic.PureOps.Ideal.Laws
import Idealize.ShloMosaic.Lib.ValueIdx

noncomputable section

namespace Cert.Lib.PlainDot

open Idealize.ShloMosaic Idealize.ShloMosaic.ValueIdx

variable (M K N : ℕ)

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction sum of a plain product, over the contracted coordinate. -/
theorem sum_plain {α : Type*} [AddCommMonoid α] (f : (⟨2, ![M, K]⟩ : Shape).Idx → (⟨2, ![K, N]⟩ : Shape).Idx → α)
    (i : (⟨2, ![M, N]⟩ : Shape).Idx) :
    ∑ q : (DotDims.plain M K N).contr.Idx, f ((DotDims.plain M K N).lhsIdx i q) ((DotDims.plain M K N).rhsIdx i q)
      = ∑ k : Fin K, f (ix2 (i 0) k) (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs0 M K N _ _
      | ⟨1, _⟩ => exact ((DotDims.plain M K N).lhsIdx_val_of_single (cl := 1) rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single (cr := 0) rfl i _).trans hk
      | ⟨1, _⟩ => exact rhs1 M K N _ _)
  rw [el, er]
  rfl

/-- The matrix unit's product into a zero accumulator, at an index. -/
theorem matmul_zero_apply {φ₁ φ₂ : FTy} (prec : Option ContractPrecision)
    (l : FVec Ideal ⟨2, ![M, K]⟩ φ₁) (r : FVec Ideal ⟨2, ![K, N]⟩ φ₂) (i : (⟨2, ![M, N]⟩ : Shape).Idx) :
    FloatOps.matmul (DotDims.plain M K N) prec l r (constant ⟨2, ![M, N]⟩ .f32 0x00000000#32) i
      = ∑ k : Fin K, l (ix2 (i 0) k) * r (ix2 k (i 1)) := by
  rw [Ideal.matmul_constant_zero_apply]
  exact sum_plain M K N (fun a b => l a * r b) i

/-- The host's `dot_general`, at an index. -/
theorem dotGeneral_apply {φ₁ φ₂ : FTy} (prec : Option ContractPrecision) (sched : HostSchedule)
    (l : FVec Ideal ⟨2, ![M, K]⟩ φ₁) (r : FVec Ideal ⟨2, ![K, N]⟩ φ₂) (i : (⟨2, ![M, N]⟩ : Shape).Idx) :
    FloatOps.dotGeneral (DotDims.plain M K N) prec sched l r i
      = ∑ k : Fin K, l (ix2 (i 0) k) * r (ix2 k (i 1)) := by
  rw [Ideal.dotGeneral_apply]
  exact sum_plain M K N (fun a b => l a * r b) i

end Cert.Lib.PlainDot

end
-- ==== Proof.KernelBody.lean ====
/-
  The two kernel bodies' stored values, read at one element, at the ideal instance.

  First body, for a block of 5000 rows: with `a` the aggregated-neighbour block, `x` the feature block, `u`, `v` the two
  96 x 128 weight matrices (already transposed), `b` the 1 x 128 bias row and `p` the 128 x 64 projection,
    hidden (r, j) = max ((Σₖ a (r, k) · u (k, j) + Σₖ x (r, k) · v (k, j)) + b (0, j)) 0,
    projected (r, o) = Σⱼ hidden (r, j) · p (j, o).
  Second body: with `s` the aggregated projected block, `h` the hidden block, `q` the 128 x 64 root weights and `d` the
  1 x 64 bias row,
    result (r, o) = (s (r, o) + Σⱼ h (r, j) · q (j, o)) + d (0, o).
  The changes of float format are the identity at this instance, the matrix unit's product into a zero accumulator is
  the plain sum, and the zero literal is the real zero.
-/
import proofs.«109176_j68865505624262_2_alg».proof.Proof.Gen.KernelIdeal.Skeleton
import proofs.«109176_j68865505624262_2_alg».proof.Proof.LibPlainDot
import Idealize.ShloMosaic.Lib.Pipeline.Value
import Idealize.ShloMosaic.Lib.ValueIdx
import Idealize.ShloMosaic.PureOps.Ideal.Laws

noncomputable section

open scoped BigOperators

namespace Cert.KernelIdeal.Hand

open Cert.KernelIdeal Cert.KernelIdeal.Gen
open Idealize.ShloMosaic Idealize.ShloMosaic.ValueIdx

/-- The first body's hidden value at row `r`, column `j` of the block. -/
def hidBlk (a x : S5000x96.Idx → EReal) (u v : S96x128.Idx → EReal) (b : S1x128.Idx → EReal) (r : Fin 5000) (j : Fin 128) : EReal :=
  max ((∑ k : Fin 96, a (ix2 r k) * u (ix2 k j) + ∑ k : Fin 96, x (ix2 r k) * v (ix2 k j)) + b (ix2 0 j)) 0

theorem mm96 (l : FVec Ideal S5000x96 .bf16) (w : FVec Ideal S96x128 .bf16) (r : Fin 5000) (j : Fin 128) :
    FloatOps.matmul (F := Ideal) dot_S5000x96_S96x128_S5000x128_1_0_0_1_n_n none l w (constant S5000x128 .f32 0x00000000#32) (ix2 r j)
      = ∑ k : Fin 96, l (ix2 r k) * w (ix2 k j) :=
  Cert.Lib.PlainDot.matmul_zero_apply 5000 96 128 none l w (ix2 r j)

theorem mm128 (l : FVec Ideal S5000x128 .bf16) (w : FVec Ideal S128x64 .bf16) (r : Fin 5000) (o : Fin 64) :
    FloatOps.matmul (F := Ideal) dot_S5000x128_S128x64_S5000x64_1_0_0_1_n_n none l w (constant S5000x64 .f32 0x00000000#32) (ix2 r o)
      = ∑ j : Fin 128, l (ix2 r j) * w (ix2 j o) :=
  Cert.Lib.PlainDot.matmul_zero_apply 5000 128 64 none l w (ix2 r o)

/-- A 1 x 128 row broadcast to 5000 rows, read at `(r, j)`. -/
theorem bcast128 (b : S1x128.Idx → EReal) (r : Fin 5000) (j : Fin 128) :
    broadcastTo S5000x128 b broadcasts_S1x128_S5000x128 (ix2 r j) = b (ix2 0 j) :=
  broadcastTo_apply b broadcasts_S1x128_S5000x128 (ix2 r j) (ix2 0 j) fun a => by
    match a with
    | ⟨0, _⟩ => rfl
    | ⟨1, _⟩ => rfl

/-- A 1 x 64 row broadcast to 5000 rows, read at `(r, o)`. -/
theorem bcast64 (d : S1x64.Idx → EReal) (r : Fin 5000) (o : Fin 64) :
    broadcastTo S5000x64 d broadcasts_S1x64_S5000x64 (ix2 r o) = d (ix2 0 o) :=
  broadcastTo_apply d broadcasts_S1x64_S5000x64 (ix2 r o) (ix2 0 o) fun a => by
    match a with
    | ⟨0, _⟩ => rfl
    | ⟨1, _⟩ => rfl

/-- The stored hidden block at `(r, j)`. -/
theorem pay_hidden (a x : Vec Ideal S5000x96 .f32) (u v : Vec Ideal S96x128 .f32) (b : Vec Ideal S1x128 .f32) (r : Fin 5000) (j : Fin 128) :
    k0_pay1 (F := Ideal) a x u v b (ix2 r j) = hidBlk a x u v b r j := by
  unfold k0_pay1 hidBlk
  simp only [shapeCast_self]
  show max ((FloatOps.matmul (F := Ideal) dot_S5000x96_S96x128_S5000x128_1_0_0_1_n_n none _ _ (constant S5000x128 .f32 0x00000000#32) (ix2 r j)
      + FloatOps.matmul (F := Ideal) dot_S5000x96_S96x128_S5000x128_1_0_0_1_n_n none _ _ (constant S5000x128 .f32 0x00000000#32) (ix2 r j))
      + broadcastTo S5000x128 b broadcasts_S1x128_S5000x128 (ix2 r j)) (Ideal.ofBits .f32 0x00000000#32) = _
  rw [mm96, mm96, bcast128, Ideal.ofBits_zero_f32]
  rfl

/-- The stored projected block at `(r, o)`. -/
theorem pay_projected (a x : Vec Ideal S5000x96 .f32) (u v : Vec Ideal S96x128 .f32) (b : Vec Ideal S1x128 .f32) (p : Vec Ideal S128x64 .f32)
    (r : Fin 5000) (o : Fin 64) :
    k0_pay2 (F := Ideal) a x u v b p (ix2 r o) = ∑ j : Fin 128, hidBlk a x u v b r j * p (ix2 j o) := by
  unfold k0_pay2
  simp only [shapeCast_self]
  show FloatOps.matmul (F := Ideal) dot_S5000x128_S128x64_S5000x64_1_0_0_1_n_n none _ _ (constant S5000x64 .f32 0x00000000#32) (ix2 r o) = _
  rw [mm128]
  refine Finset.sum_congr rfl fun j _ => ?_
  show k0_pay1 (F := Ideal) a x u v b (ix2 r j) * p (ix2 j o) = _
  rw [pay_hidden]

/-- The second body's stored block at `(r, o)`. -/
theorem pay_result (s : Vec Ideal S5000x64 .f32) (h : Vec Ideal S5000x128 .f32) (q : Vec Ideal S128x64 .f32) (d : Vec Ideal S1x64 .f32)
    (r : Fin 5000) (o : Fin 64) :
    k1_pay1 (F := Ideal) s h q d (ix2 r o) = (s (ix2 r o) + ∑ j : Fin 128, h (ix2 r j) * q (ix2 j o)) + d (ix2 0 o) := by
  unfold k1_pay1
  simp only [shapeCast_self]
  show (s (ix2 r o) + FloatOps.matmul (F := Ideal) dot_S5000x128_S128x64_S5000x64_1_0_0_1_n_n none _ _ (constant S5000x64 .f32 0x00000000#32) (ix2 r o))
      + broadcastTo S5000x64 d broadcasts_S1x64_S5000x64 (ix2 r o) = _
  rw [mm128, bcast64]
  rfl

end Cert.KernelIdeal.Hand

end
-- ==== Proof.KernelRegion0.lean ====
/-
  The first pallas_call's two output arrays as whole-array functions of the arrays it finds at entry.

  The grid has 10 points; point `t` works on rows `5000 t … 5000 t + 4999`. The aggregated-neighbour array and the
  feature array are staged in blocks of 5000 rows; the two weight matrices, the bias row and the projection are staged
  whole. Each output is written back block by block, the blocks tile it, and element `(n, ·)` of an output depends on row
  `n` of the row-blocked inputs only. So with `A0 … A5` the six input arrays,
    hidden (n, j) = max ((Σₖ A0 (n, k) · A2 (k, j) + Σₖ A1 (n, k) · A3 (k, j)) + A4 (0, j)) 0,
    projected (n, o) = Σⱼ hidden (n, j) · A5 (j, o).
-/
import proofs.«109176_j68865505624262_2_alg».proof.Proof.Gen.KernelIdeal.Frame
import proofs.«109176_j68865505624262_2_alg».proof.Proof.KernelBody

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- The hidden features of node `n`. -/
def hidNode (A0 A1 : S50000x96.Idx → EReal) (A2 A3 : S96x128.Idx → EReal) (A4 : S1x128.Idx → EReal) (n : Fin 50000) (j : Fin 128) : EReal :=
  max ((∑ k : Fin 96, A0 (ix2 n k) * A2 (ix2 k j) + ∑ k : Fin 96, A1 (ix2 n k) * A3 (ix2 k j)) + A4 (ix2 0 j)) 0

/-- The projected hidden features of node `n`. -/
def projNode (A0 A1 : S50000x96.Idx → EReal) (A2 A3 : S96x128.Idx → EReal) (A4 : S1x128.Idx → EReal) (A5 : S128x64.Idx → EReal)
    (n : Fin 50000) (o : Fin 64) : EReal :=
  ∑ j : Fin 128, hidNode A0 A1 A2 A3 A4 n j * A5 (ix2 j o)

/-- The hidden array. -/
def hidArr (A0 A1 : S50000x96.Idx → EReal) (A2 A3 : S96x128.Idx → EReal) (A4 : S1x128.Idx → EReal) : S50000x128.Idx → EReal :=
  fun i => hidNode A0 A1 A2 A3 A4 (i 0) (i 1)

/-- The projected array. -/
def projArr (A0 A1 : S50000x96.Idx → EReal) (A2 A3 : S96x128.Idx → EReal) (A4 : S1x128.Idx → EReal) (A5 : S128x64.Idx → EReal) :
    S50000x64.Idx → EReal :=
  fun i => projNode A0 A1 A2 A3 A4 A5 (i 0) (i 1)

/-- One block of rows `5000 q …`: the stored hidden block is the hidden array's rows. -/
theorem blk_hidden (a x : Vec Ideal S5000x96 .f32) (u v : Vec Ideal S96x128 .f32) (b : Vec Ideal S1x128 .f32)
    (A0 A1 : S50000x96.Idx → EReal) (q : ℕ) (hq : q < 10)
    (ha : ∀ (r : Fin 5000) (k : Fin 96), a (ix2 r k) = A0 (ix2 ⟨q * 5000 + r.val, by have := r.isLt; omega⟩ k))
    (hx : ∀ (r : Fin 5000) (k : Fin 96), x (ix2 r k) = A1 (ix2 ⟨q * 5000 + r.val, by have := r.isLt; omega⟩ k))
    (r : Fin 5000) (j : Fin 128) :
    k0_pay1 (F := Ideal) a x u v b (ix2 r j) = hidNode A0 A1 u v b ⟨q * 5000 + r.val, by have := r.isLt; omega⟩ j := by
  rw [pay_hidden]
  unfold hidBlk hidNode
  simp only [ha, hx]

theorem blk_projected (a x : Vec Ideal S5000x96 .f32) (u v : Vec Ideal S96x128 .f32) (b : Vec Ideal S1x128 .f32) (p : Vec Ideal S128x64 .f32)
    (A0 A1 : S50000x96.Idx → EReal) (q : ℕ) (hq : q < 10)
    (ha : ∀ (r : Fin 5000) (k : Fin 96), a (ix2 r k) = A0 (ix2 ⟨q * 5000 + r.val, by have := r.isLt; omega⟩ k))
    (hx : ∀ (r : Fin 5000) (k : Fin 96), x (ix2 r k) = A1 (ix2 ⟨q * 5000 + r.val, by have := r.isLt; omega⟩ k))
    (r : Fin 5000) (o : Fin 64) :
    k0_pay2 (F := Ideal) a x u v b p (ix2 r o) = projNode A0 A1 u v b p ⟨q * 5000 + r.val, by have := r.isLt; omega⟩ o := by
  rw [pay_projected]
  unfold projNode hidBlk hidNode
  simp only [ha, hx]

section Region
variable (V : (c : Dev nD) → (b : Ref sig .tc) → Buf (Elt Ideal) ((c : Thread nD τ).loc b))

/-- The printed index maps, decided over the grid: the row-blocked windows are at block `(t, 0)`, the others at `(0, 0)`. -/
theorem idx_facts0 : ∀ t : Fin cfg0.N,
    win0_6.index t (0 : Fin 2) = t.val ∧ win0_6.index t (1 : Fin 2) = 0
    ∧ win0_7.index t (0 : Fin 2) = t.val ∧ win0_7.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ t.val < 10 :=
  (by decide +kernel : ∀ t : Fin grid0.N, _)

/-- Every block row is some point's. -/
theorem idx_onto0 : ∀ q : Fin 10, ∃ t : Fin cfg0.N, t.val = q.val :=
  (by decide +kernel : ∀ q : Fin 10, ∃ t : Fin grid0.N, t.val = q.val)

theorem iblk0_0_apply (c : Dev nD) (t : Fin cfg0.N) (ht : t.val < 10) (r : Fin 5000) (k : Fin 96) :
    (iblk0 V c 0 t : Vec Ideal S5000x96 .f32) (ix2 r k)
      = (V c main_v15 : S50000x96.Idx → EReal) (ix2 ⟨t.val * 5000 + r.val, by have := r.isLt; omega⟩ k) := by
  obtain ⟨-, -, -, -, e0, e1, -⟩ := idx_facts0 t
  unfold iblk0
  rw [View.read_apply]
  show V c main_v15 _ = V c main_v15 _
  congr 1
  funext a; apply Fin.ext
  match a with
  | ⟨0, _⟩ => show win0_0.index t (0 : Fin 2) * 5000 + 1 * r.val = t.val * 5000 + r.val; rw [e0]; omega
  | ⟨1, _⟩ => show win0_0.index t (1 : Fin 2) * 96 + 1 * k.val = k.val; rw [e1]; omega

theorem iblk0_1_apply (c : Dev nD) (t : Fin cfg0.N) (ht : t.val < 10) (r : Fin 5000) (k : Fin 96) :
    (iblk0 V c 1 t : Vec Ideal S5000x96 .f32) (ix2 r k)
      = (V c main_arg0 : S50000x96.Idx → EReal) (ix2 ⟨t.val * 5000 + r.val, by have := r.isLt; omega⟩ k) := by
  obtain ⟨-, -, -, -, -, -, e0, e1, -⟩ := idx_facts0 t
  unfold iblk0
  rw [View.read_apply]
  show V c main_arg0 _ = V c main_arg0 _
  congr 1
  funext a; apply Fin.ext
  match a with
  | ⟨0, _⟩ => show win0_1.index t (0 : Fin 2) * 5000 + 1 * r.val = t.val * 5000 + r.val; rw [e0]; omega
  | ⟨1, _⟩ => show win0_1.index t (1 : Fin 2) * 96 + 1 * k.val = k.val; rw [e1]; omega

theorem iblk0_2_eq (c : Dev nD) (t : Fin cfg0.N) : (iblk0 V c 2 t : Vec Ideal S96x128 .f32) = (V c main_v16 : S96x128.Idx → EReal) := by
  obtain ⟨-, -, -, -, -, -, -, -, e0, e1, -⟩ := idx_facts0 t
  funext y
  unfold iblk0
  rw [View.read_apply]
  show V c main_v16 _ = V c main_v16 y
  congr 1
  funext a; apply Fin.ext
  match a with
  | ⟨0, _⟩ => show win0_2.index t (0 : Fin 2) * 96 + 1 * (y 0).val = (y 0).val; rw [e0]; omega
  | ⟨1, _⟩ => show win0_2.index t (1 : Fin 2) * 128 + 1 * (y 1).val = (y 1).val; rw [e1]; omega

theorem iblk0_3_eq (c : Dev nD) (t : Fin cfg0.N) : (iblk0 V c 3 t : Vec Ideal S96x128 .f32) = (V c main_v17 : S96x128.Idx → EReal) := by
  obtain ⟨-, -, -, -, -, -, -, -, -, -, e0, e1, -⟩ := idx_facts0 t
  funext y
  unfold iblk0
  rw [View.read_apply]
  show V c main_v17 _ = V c main_v17 y
  congr 1
  funext a; apply Fin.ext
  match a with
  | ⟨0, _⟩ => show win0_3.index t (0 : Fin 2) * 96 + 1 * (y 0).val = (y 0).val; rw [e0]; omega
  | ⟨1, _⟩ => show win0_3.index t (1 : Fin 2) * 128 + 1 * (y 1).val = (y 1).val; rw [e1]; omega

theorem iblk0_4_eq (c : Dev nD) (t : Fin cfg0.N) : (iblk0 V c 4 t : Vec Ideal S1x128 .f32) = (V c main_v19 : S1x128.Idx → EReal) := by
  obtain ⟨-, -, -, -, -, -, -, -, -, -, -, -, e0, e1, -⟩ := idx_facts0 t
  funext y
  unfold iblk0
  rw [View.read_apply]
  show V c main_v19 _ = V c main_v19 y
  congr 1
  funext a; apply Fin.ext
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega

theorem iblk0_5_eq (c : Dev nD) (t : Fin cfg0.N) : (iblk0 V c 5 t : Vec Ideal S128x64 .f32) = (V c main_v18 : S128x64.Idx → EReal) := by
  obtain ⟨-, -, -, -, -, -, -, -, -, -, -, -, -, -, e0, e1, -⟩ := idx_facts0 t
  funext y
  unfold iblk0
  rw [View.read_apply]
  show V c main_v18 _ = V c main_v18 y
  congr 1
  funext a; apply Fin.ext
  match a with
  | ⟨0, _⟩ => show win0_5.index t (0 : Fin 2) * 128 + 1 * (y 0).val = (y 0).val; rw [e0]; omega
  | ⟨1, _⟩ => show win0_5.index t (1 : Fin 2) * 64 + 1 * (y 1).val = (y 1).val; rw [e1]; omega

/-- What point `t` writes back to the hidden array is that array's block `t`. -/
theorem flushed0_6_eq (c : Dev nD) (t : Fin cfg0.N) :
    (dat0 V c).flushed 6 t = ((cfg0.win 6).blk t).view.read (Elt Ideal)
      (hidArr (V c main_v15) (V c main_arg0) (V c main_v16) (V c main_v17) (V c main_v19)) := by
  show (cfg0.win 6).cut (grid0.coords t) ((dat0 V c).after 6 t) = _
  rw [after0_6]
  unfold out0_6
  rw [View.canon_unit_zero hz]
  simp only [View.ld_unit_zero (S := S5000x96) hz, View.ld_unit_zero (S := S96x128) hz, View.ld_unit_zero (S := S1x128) hz]
  rw [iblk0_2_eq, iblk0_3_eq, iblk0_4_eq]
  obtain ⟨e0, e1, -, -, -, -, -, -, -, -, -, -, -, -, -, -, ht⟩ := idx_facts0 t
  refine funext fun (y : S5000x128.Idx) => ?_
  obtain ⟨r, j, rfl⟩ : ∃ (r : Fin 5000) (j : Fin 128), y = ix2 r j := ⟨y 0, y 1, eq_ix2 y⟩
  show k0_pay1 (F := Ideal) (iblk0 V c 0 t) (iblk0 V c 1 t) (V c main_v16) (V c main_v17) (V c main_v19) (ix2 r j)
    = hidArr (V c main_v15) (V c main_arg0) (V c main_v16) (V c main_v17) (V c main_v19) (((cfg0.win 6).blk t).view.emb (ix2 r j))
  refine (blk_hidden (iblk0 V c 0 t) (iblk0 V c 1 t) (V c main_v16) (V c main_v17) (V c main_v19) (V c main_v15) (V c main_arg0) t.val ht
    (iblk0_0_apply V c t ht) (iblk0_1_apply V c t ht) r j).trans ?_
  have hi : ((cfg0.win 6).blk t).view.emb (ix2 r j) = (ix2 ⟨t.val * 5000 + r.val, by have := r.isLt; omega⟩ j : S50000x128.Idx) := by
    funext a; apply Fin.ext
    match a with
    | ⟨0, _⟩ => show win0_6.index t (0 : Fin 2) * 5000 + 1 * r.val = t.val * 5000 + r.val; rw [e0]; omega
    | ⟨1, _⟩ => show win0_6.index t (1 : Fin 2) * 128 + 1 * j.val = j.val; rw [e1]; omega
  rw [hi]
  rfl

/-- What point `t` writes back to the projected array is that array's block `t`. -/
theorem flushed0_7_eq (c : Dev nD) (t : Fin cfg0.N) :
    (dat0 V c).flushed 7 t = ((cfg0.win 7).blk t).view.read (Elt Ideal)
      (projArr (V c main_v15) (V c main_arg0) (V c main_v16) (V c main_v17) (V c main_v19) (V c main_v18)) := by
  show (cfg0.win 7).cut (grid0.coords t) ((dat0 V c).after 7 t) = _
  rw [after0_7]
  unfold out0_7
  rw [View.canon_unit_zero hz]
  simp only [View.ld_unit_zero (S := S5000x96) hz, View.ld_unit_zero (S := S96x128) hz, View.ld_unit_zero (S := S1x128) hz,
    View.ld_unit_zero (S := S128x64) hz]
  rw [iblk0_2_eq, iblk0_3_eq, iblk0_4_eq, iblk0_5_eq]
  obtain ⟨-, -, e0, e1, -, -, -, -, -, -, -, -, -, -, -, -, ht⟩ := idx_facts0 t
  refine funext fun (y : S5000x64.Idx) => ?_
  obtain ⟨r, o, rfl⟩ : ∃ (r : Fin 5000) (o : Fin 64), y = ix2 r o := ⟨y 0, y 1, eq_ix2 y⟩
  show k0_pay2 (F := Ideal) (iblk0 V c 0 t) (iblk0 V c 1 t) (V c main_v16) (V c main_v17) (V c main_v19) (V c main_v18) (ix2 r o)
    = projArr (V c main_v15) (V c main_arg0) (V c main_v16) (V c main_v17) (V c main_v19) (V c main_v18) (((cfg0.win 7).blk t).view.emb (ix2 r o))
  refine (blk_projected (iblk0 V c 0 t) (iblk0 V c 1 t) (V c main_v16) (V c main_v17) (V c main_v19) (V c main_v18) (V c main_v15) (V c main_arg0) t.val ht
    (iblk0_0_apply V c t ht) (iblk0_1_apply V c t ht) r o).trans ?_
  have hi : ((cfg0.win 7).blk t).view.emb (ix2 r o) = (ix2 ⟨t.val * 5000 + r.val, by have := r.isLt; omega⟩ o : S50000x64.Idx) := by
    funext a; apply Fin.ext
    match a with
    | ⟨0, _⟩ => show win0_7.index t (0 : Fin 2) * 5000 + 1 * r.val = t.val * 5000 + r.val; rw [e0]; omega
    | ⟨1, _⟩ => show win0_7.index t (1 : Fin 2) * 64 + 1 * o.val = o.val; rw [e1]; omega
  rw [hi]
  rfl

theorem mem_blk0_6 (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v20_0).slice (win0_6.rect t)).set ↔ _
  rw [View.set_slice_whole, Rect.mem_set_unit]
  exact Iff.rfl

theorem mem_blk0_7 (t : Fin cfg0.N) (i : S50000x64.Idx) :
    i ∈ ((cfg0.win 7).blk t).view.set ↔ ∀ a : Fin 2, win0_7.index t a * S5000x64.size a ≤ (i a).val ∧ (i a).val < win0_7.index t a * S5000x64.size a + S5000x64.size a := by
  show i ∈ ((View.whole main_v20_1).slice (win0_7.rect t)).set ↔ _
  rw [View.set_slice_whole, Rect.mem_set_unit]
  exact Iff.rfl

/-- The hidden array after the first pallas_call. -/
theorem final0_6 (c : Dev nD) : (dat0 V c).arrAt 6 cfg0.N
    = hidArr (V c main_v15) (V c main_arg0) (V c main_v16) (V c main_v17) (V c main_v19) :=
  (dat0 V c).arrAt_eq_of_cover 6 _ (fun t _ => flushed0_6_eq V c t) fun i => by
    have hi0 : (i 0).val < 50000 := (i 0).isLt
    have hi1 : (i 1).val < 128 := (i 1).isLt
    obtain ⟨t, ht⟩ := idx_onto0 ⟨(i 0).val / 5000, by omega⟩
    have ht' : t.val = (i 0).val / 5000 := ht
    obtain ⟨e0, e1, -⟩ := idx_facts0 t
    refine ⟨t, flush0_6 t, ?_⟩
    rw [mem_blk0_6]
    intro a
    match a with
    | ⟨0, _⟩ => show win0_6.index t (0 : Fin 2) * 5000 ≤ (i 0).val ∧ (i 0).val < win0_6.index t (0 : Fin 2) * 5000 + 5000; rw [e0]; omega
    | ⟨1, _⟩ => show win0_6.index t (1 : Fin 2) * 128 ≤ (i 1).val ∧ (i 1).val < win0_6.index t (1 : Fin 2) * 128 + 128; rw [e1]; omega

/-- The projected array after the first pallas_call. -/
theorem final0_7 (c : Dev nD) : (dat0 V c).arrAt 7 cfg0.N
    = projArr (V c main_v15) (V c main_arg0) (V c main_v16) (V c main_v17) (V c main_v19) (V c main_v18) :=
  (dat0 V c).arrAt_eq_of_cover 7 _ (fun t _ => flushed0_7_eq V c t) fun i => by
    have hi0 : (i 0).val < 50000 := (i 0).isLt
    have hi1 : (i 1).val < 64 := (i 1).isLt
    obtain ⟨t, ht⟩ := idx_onto0 ⟨(i 0).val / 5000, by omega⟩
    have ht' : t.val = (i 0).val / 5000 := ht
    obtain ⟨-, -, e0, e1, -⟩ := idx_facts0 t
    refine ⟨t, flush0_7 t, ?_⟩
    rw [mem_blk0_7]
    intro a
    match a with
    | ⟨0, _⟩ => show win0_7.index t (0 : Fin 2) * 5000 ≤ (i 0).val ∧ (i 0).val < win0_7.index t (0 : Fin 2) * 5000 + 5000; rw [e0]; omega
    | ⟨1, _⟩ => show win0_7.index t (1 : Fin 2) * 64 ≤ (i 1).val ∧ (i 1).val < win0_7.index t (1 : Fin 2) * 64 + 64; rw [e1]; omega

end Region

end Cert.KernelIdeal.Hand

end
-- ==== Proof.KernelRegion1.lean ====
/-
  The second pallas_call's output array as a whole-array function of the arrays it finds at entry.

  Again 10 grid points of 5000 rows. With `B0` the aggregated projected array and `B1` the hidden array (both staged in
  blocks of 5000 rows), `B2` the 128 x 64 root weights and `B3` the 1 x 64 bias row (staged whole),
    result (n, o) = (B0 (n, o) + Σⱼ B1 (n, j) · B2 (j, o)) + B3 (0, o).
-/
import proofs.«109176_j68865505624262_2_alg».proof.Proof.Gen.KernelIdeal.Frame
import proofs.«109176_j68865505624262_2_alg».proof.Proof.KernelBody

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

theorem hz1 : (![0, 0] : Fin 2 → Nat) = fun _ => 0 := funext fun a => by fin_cases a <;> rfl

/-- The result at node `n`. -/
def resNode (B0 : S50000x64.Idx → EReal) (B1 : S50000x128.Idx → EReal) (B2 : S128x64.Idx → EReal) (B3 : S1x64.Idx → EReal)
    (n : Fin 50000) (o : Fin 64) : EReal :=
  (B0 (ix2 n o) + ∑ j : Fin 128, B1 (ix2 n j) * B2 (ix2 j o)) + B3 (ix2 0 o)

/-- The result array. -/
def resArr (B0 : S50000x64.Idx → EReal) (B1 : S50000x128.Idx → EReal) (B2 : S128x64.Idx → EReal) (B3 : S1x64.Idx → EReal) :
    S50000x64.Idx → EReal :=
  fun i => resNode B0 B1 B2 B3 (i 0) (i 1)

/-- One block of rows `5000 q …`: the stored block is the result array's rows. -/
theorem blk_result (s : Vec Ideal S5000x64 .f32) (h : Vec Ideal S5000x128 .f32) (w : Vec Ideal S128x64 .f32) (d : Vec Ideal S1x64 .f32)
    (B0 : S50000x64.Idx → EReal) (B1 : S50000x128.Idx → EReal) (q : ℕ) (hq : q < 10)
    (hs : ∀ (r : Fin 5000) (o : Fin 64), s (ix2 r o) = B0 (ix2 ⟨q * 5000 + r.val, by have := r.isLt; omega⟩ o))
    (hh : ∀ (r : Fin 5000) (j : Fin 128), h (ix2 r j) = B1 (ix2 ⟨q * 5000 + r.val, by have := r.isLt; omega⟩ j))
    (r : Fin 5000) (o : Fin 64) :
    k1_pay1 (F := Ideal) s h w d (ix2 r o) = resNode B0 B1 w d ⟨q * 5000 + r.val, by have := r.isLt; omega⟩ o := by
  rw [pay_result]
  unfold resNode
  simp only [hs, hh]

section Region
variable (V : (c : Dev nD) → (b : Ref sig .tc) → Buf (Elt Ideal) ((c : Thread nD τ).loc b))

/-- The printed index maps, decided over the grid. -/
theorem idx_facts1 : ∀ t : Fin cfg1.N,
    win1_4.index t (0 : Fin 2) = t.val ∧ win1_4.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ t.val < 10 :=
  (by decide +kernel : ∀ t : Fin grid1.N, _)

/-- Every block row is some point's. -/
theorem idx_onto1 : ∀ q : Fin 10, ∃ t : Fin cfg1.N, t.val = q.val :=
  (by decide +kernel : ∀ q : Fin 10, ∃ t : Fin grid1.N, t.val = q.val)

theorem iblk1_0_apply (c : Dev nD) (t : Fin cfg1.N) (ht : t.val < 10) (r : Fin 5000) (o : Fin 64) :
    (iblk1 V c 0 t : Vec Ideal S5000x64 .f32) (ix2 r o)
      = (V c main_v30 : S50000x64.Idx → EReal) (ix2 ⟨t.val * 5000 + r.val, by have := r.isLt; omega⟩ o) := by
  obtain ⟨-, -, e0, e1, -⟩ := idx_facts1 t
  unfold iblk1
  rw [View.read_apply]
  show V c main_v30 _ = V c main_v30 _
  congr 1
  funext a; apply Fin.ext
  match a with
  | ⟨0, _⟩ => show win1_0.index t (0 : Fin 2) * 5000 + 1 * r.val = t.val * 5000 + r.val; rw [e0]; omega
  | ⟨1, _⟩ => show win1_0.index t (1 : Fin 2) * 64 + 1 * o.val = o.val; rw [e1]; omega

theorem iblk1_1_apply (c : Dev nD) (t : Fin cfg1.N) (ht : t.val < 10) (r : Fin 5000) (j : Fin 128) :
    (iblk1 V c 1 t : Vec Ideal S5000x128 .f32) (ix2 r j)
      = (V c main_v20_0 : S50000x128.Idx → EReal) (ix2 ⟨t.val * 5000 + r.val, by have := r.isLt; omega⟩ j) := by
  obtain ⟨-, -, -, -, e0, e1, -⟩ := idx_facts1 t
  unfold iblk1
  rw [View.read_apply]
  show V c main_v20_0 _ = V c main_v20_0 _
  congr 1
  funext a; apply Fin.ext
  match a with
  | ⟨0, _⟩ => show win1_1.index t (0 : Fin 2) * 5000 + 1 * r.val = t.val * 5000 + r.val; rw [e0]; omega
  | ⟨1, _⟩ => show win1_1.index t (1 : Fin 2) * 128 + 1 * j.val = j.val; rw [e1]; omega

theorem iblk1_2_eq (c : Dev nD) (t : Fin cfg1.N) : (iblk1 V c 2 t : Vec Ideal S128x64 .f32) = (V c main_v31 : S128x64.Idx → EReal) := by
  obtain ⟨-, -, -, -, -, -, e0, e1, -⟩ := idx_facts1 t
  funext y
  unfold iblk1
  rw [View.read_apply]
  show V c main_v31 _ = V c main_v31 y
  congr 1
  funext a; apply Fin.ext
  match a with
  | ⟨0, _⟩ => show win1_2.index t (0 : Fin 2) * 128 + 1 * (y 0).val = (y 0).val; rw [e0]; omega
  | ⟨1, _⟩ => show win1_2.index t (1 : Fin 2) * 64 + 1 * (y 1).val = (y 1).val; rw [e1]; omega

theorem iblk1_3_eq (c : Dev nD) (t : Fin cfg1.N) : (iblk1 V c 3 t : Vec Ideal S1x64 .f32) = (V c main_v32 : S1x64.Idx → EReal) := by
  obtain ⟨-, -, -, -, -, -, -, -, e0, e1, -⟩ := idx_facts1 t
  funext y
  unfold iblk1
  rw [View.read_apply]
  show V c main_v32 _ = V c main_v32 y
  congr 1
  funext a; apply Fin.ext
  match a with
  | ⟨0, _⟩ => show win1_3.index t (0 : Fin 2) * 1 + 1 * (y 0).val = (y 0).val; rw [e0]; omega
  | ⟨1, _⟩ => show win1_3.index t (1 : Fin 2) * 64 + 1 * (y 1).val = (y 1).val; rw [e1]; omega

/-- What point `t` writes back is the result array's block `t`. -/
theorem flushed1_4_eq (c : Dev nD) (t : Fin cfg1.N) :
    (dat1 V c).flushed 4 t = ((cfg1.win 4).blk t).view.read (Elt Ideal)
      (resArr (V c main_v30) (V c main_v20_0) (V c main_v31) (V c main_v32)) := by
  show (cfg1.win 4).cut (grid1.coords t) ((dat1 V c).after 4 t) = _
  rw [after1_4]
  unfold out1_4
  rw [View.canon_unit_zero hz1]
  simp only [View.ld_unit_zero (S := S5000x64) hz1, View.ld_unit_zero (S := S5000x128) hz1, View.ld_unit_zero (S := S128x64) hz1,
    View.ld_unit_zero (S := S1x64) hz1]
  rw [iblk1_2_eq, iblk1_3_eq]
  obtain ⟨e0, e1, -, -, -, -, -, -, -, -, ht⟩ := idx_facts1 t
  refine funext fun (y : S5000x64.Idx) => ?_
  obtain ⟨r, o, rfl⟩ : ∃ (r : Fin 5000) (o : Fin 64), y = ix2 r o := ⟨y 0, y 1, eq_ix2 y⟩
  show k1_pay1 (F := Ideal) (iblk1 V c 0 t) (iblk1 V c 1 t) (V c main_v31) (V c main_v32) (ix2 r o)
    = resArr (V c main_v30) (V c main_v20_0) (V c main_v31) (V c main_v32) (((cfg1.win 4).blk t).view.emb (ix2 r o))
  refine (blk_result (iblk1 V c 0 t) (iblk1 V c 1 t) (V c main_v31) (V c main_v32) (V c main_v30) (V c main_v20_0) t.val ht
    (iblk1_0_apply V c t ht) (iblk1_1_apply V c t ht) r o).trans ?_
  have hi : ((cfg1.win 4).blk t).view.emb (ix2 r o) = (ix2 ⟨t.val * 5000 + r.val, by have := r.isLt; omega⟩ o : S50000x64.Idx) := by
    funext a; apply Fin.ext
    match a with
    | ⟨0, _⟩ => show win1_4.index t (0 : Fin 2) * 5000 + 1 * r.val = t.val * 5000 + r.val; rw [e0]; omega
    | ⟨1, _⟩ => show win1_4.index t (1 : Fin 2) * 64 + 1 * o.val = o.val; rw [e1]; omega
  rw [hi]
  rfl

theorem mem_blk1_4 (t : Fin cfg1.N) (i : S50000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v33).slice (win1_4.rect t)).set ↔ _
  rw [View.set_slice_whole, Rect.mem_set_unit]
  exact Iff.rfl

/-- The result array after the second pallas_call. -/
theorem final1_4 (c : Dev nD) : (dat1 V c).arrAt 4 cfg1.N
    = resArr (V c main_v30) (V c main_v20_0) (V c main_v31) (V c main_v32) :=
  (dat1 V c).arrAt_eq_of_cover 4 _ (fun t _ => flushed1_4_eq V c t) fun i => by
    have hi0 : (i 0).val < 50000 := (i 0).isLt
    have hi1 : (i 1).val < 64 := (i 1).isLt
    obtain ⟨t, ht⟩ := idx_onto1 ⟨(i 0).val / 5000, by omega⟩
    have ht' : t.val = (i 0).val / 5000 := ht
    obtain ⟨e0, e1, -⟩ := idx_facts1 t
    refine ⟨t, flush1_4 t, ?_⟩
    rw [mem_blk1_4]
    intro a
    match a with
    | ⟨0, _⟩ => show win1_4.index t (0 : Fin 2) * 5000 ≤ (i 0).val ∧ (i 0).val < win1_4.index t (0 : Fin 2) * 5000 + 5000; rw [e0]; omega
    | ⟨1, _⟩ => show win1_4.index t (1 : Fin 2) * 64 ≤ (i 1).val ∧ (i 1).val < win1_4.index t (1 : Fin 2) * 64 + 64; rw [e1]; omega

end Region

end Cert.KernelIdeal.Hand

end
-- ==== Proof.KernelHost.lean ====
/-
  What the two pallas_calls find in their arrays: the host operations around them, read back.

  Before the first call the host slices the edge list into source and destination words, replaces the destination of a
  self-loop by the out-of-range word 50000, normalises the source words, gathers the feature rows and scatter-adds them
  into zeros (`agg1V`), and transposes or reshapes the parameters. Between the calls it gathers and scatter-adds the
  projected rows the first call produced in the same way (`agg2V`). Each array a call finds is therefore a named
  function of the argument arrays — or, for the second call, of the first call's two output arrays — and of nothing else.
-/
import proofs.«109176_j68865505624262_2_alg».proof.Proof.Gen.KernelIdeal.Frame
import proofs.«109176_j68865505624262_2_alg».proof.Proof.KernelRegion0
import proofs.«109176_j68865505624262_2_alg».proof.Proof.KernelRegion1
import Idealize.ShloMosaic.Lib.StableHlo.Run
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

/-- The source words as a vector over the edges. -/
def srcV (ei : IVec S2x800000 32) : IVec S800000 32 :=
  shapeCast S800000 (extractStridedSlice S1x800000 ![0, 0] ei slices_S2x800000_S1x800000_0_0) shapeCasts_S1x800000_S800000
/-- The destination words as a vector over the edges. -/
def dstV (ei : IVec S2x800000 32) : IVec S800000 32 :=
  shapeCast S800000 (extractStridedSlice S1x800000 ![1, 0] ei slices_S2x800000_S1x800000_1_0) shapeCasts_S1x800000_S800000
/-- The source words with negative ones counted from the end. -/
def srcNV (ei : IVec S2x800000 32) : IVec S800000 32 :=
  select (cmpi .slt (srcV ei) (broadcastInDim S800000 ![] bcast_S_S800000 (constantI S_ 32 0#32)))
    (addi (srcV ei) (broadcastInDim S800000 ![] bcast_S_S800000 (constantI S_ 32 50000#32))) (srcV ei)
/-- The destination words with self-loops sent to the out-of-range word. -/
def dstMV (ei : IVec S2x800000 32) : IVec S800000 32 :=
  select (cmpi .eq (srcV ei) (dstV ei)) (broadcastInDim S800000 ![] bcast_S_S800000 (constantI S_ 32 50000#32)) (dstV ei)
/-- The neighbours' feature rows summed per destination. -/
def agg1V (x : FVec Ideal S50000x96 .f32) (ei : IVec S2x800000 32) : FVec Ideal S50000x96 .f32 :=
  Host.scatterAdd scatter_S50000x96_S800000x1_S800000x96_1_0_0_1
    (broadcastInDim S50000x96 ![] bcast_S_S50000x96 (constant S_ .f32 0x00000000#32))
    (broadcastInDim S800000x1 ![0] bcast_S800000_S800000x1_0 (dstMV ei))
    (Host.gather gather_S50000x96_S800000x1_S800000x96_1_0_n_n_0_1_196 x
      (broadcastInDim S800000x1 ![0] bcast_S800000_S800000x1_0 (srcNV ei)))
/-- The neighbours' projected rows summed per destination. -/
def agg2V (p : FVec Ideal S50000x64 .f32) (ei : IVec S2x800000 32) : FVec Ideal S50000x64 .f32 :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 (dstMV ei))
    (Host.gather gather_S50000x64_S800000x1_S800000x64_1_0_n_n_0_1_164 p
      (broadcastInDim S800000x1 ![0] bcast_S800000_S800000x1_0 (srcNV ei)))

variable (m : (ℓ : Loc nD τ sig) → Buf (Elt Ideal) ℓ) (ρ : Dev nD → PrngReg)

/-! ## The first call's arrays -/

set_option maxHeartbeats 4000000 in
theorem V3_v15 (c : Dev nD) : (V3 m ρ c main_v15 : S50000x96.Idx → EReal)
    = agg1V (m ((c : Thread nD τ).loc main_arg0)) (m ((c : Thread nD τ).loc main_arg1)) := by
  show StableHlo.after hostOps0_2 (W2 m ρ c) (Proc.devRef .tc main_v15) = _
  after_results <;> rfl

set_option maxHeartbeats 4000000 in
theorem V3_arg0 (c : Dev nD) : (V3 m ρ c main_arg0 : S50000x96.Idx → EReal) = m ((c : Thread nD τ).loc main_arg0) := by
  show StableHlo.after hostOps0_2 (W2 m ρ c) (Proc.devRef .tc main_arg0) = _
  after_results <;> rfl

set_option maxHeartbeats 4000000 in
theorem V3_v16 (c : Dev nD) : (V3 m ρ c main_v16 : S96x128.Idx → EReal)
    = transpose S96x128 [1, 0] (m ((c : Thread nD τ).loc main_arg2)) transposes_S128x96_S96x128_1_0 := by
  show StableHlo.after hostOps0_2 (W2 m ρ c) (Proc.devRef .tc main_v16) = _
  after_results <;> rfl

set_option maxHeartbeats 4000000 in
theorem V3_v17 (c : Dev nD) : (V3 m ρ c main_v17 : S96x128.Idx → EReal)
    = transpose S96x128 [1, 0] (m ((c : Thread nD τ).loc main_arg4)) transposes_S128x96_S96x128_1_0 := by
  show StableHlo.after hostOps0_2 (W2 m ρ c) (Proc.devRef .tc main_v17) = _
  after_results <;> rfl

set_option maxHeartbeats 4000000 in
theorem V3_v18 (c : Dev nD) : (V3 m ρ c main_v18 : S128x64.Idx → EReal)
    = transpose S128x64 [1, 0] (m ((c : Thread nD τ).loc main_arg5)) transposes_S64x128_S128x64_1_0 := by
  show StableHlo.after hostOps0_2 (W2 m ρ c) (Proc.devRef .tc main_v18) = _
  after_results <;> rfl

set_option maxHeartbeats 4000000 in
theorem V3_v19 (c : Dev nD) : (V3 m ρ c main_v19 : S1x128.Idx → EReal)
    = shapeCast S1x128 (m ((c : Thread nD τ).loc main_arg3)) shapeCasts_S128_S1x128 := by
  show StableHlo.after hostOps0_2 (W2 m ρ c) (Proc.devRef .tc main_v19) = _
  after_results <;> rfl

/-! ## What the second stretch of host operations reads -/

set_option maxHeartbeats 4000000 in
theorem W4_v1 (c : Dev nD) : (W4 m ρ c (Proc.devRef .tc main_v1) : S800000.Idx → BitVec 32) = srcV (m ((c : Thread nD τ).loc main_arg1)) := by
  refine (W4_of_ne m ρ c main_v1 (by decide)).trans ?_
  show StableHlo.after hostOps0_2 (W2 m ρ c) (Proc.devRef .tc main_v1) = _
  after_results <;> rfl

set_option maxHeartbeats 4000000 in
theorem W4_v5 (c : Dev nD) : (W4 m ρ c (Proc.devRef .tc main_v5) : S800000.Idx → BitVec 32) = dstMV (m ((c : Thread nD τ).loc main_arg1)) := by
  refine (W4_of_ne m ρ c main_v5 (by decide)).trans ?_
  show StableHlo.after hostOps0_2 (W2 m ρ c) (Proc.devRef .tc main_v5) = _
  after_results <;> rfl

set_option maxHeartbeats 4000000 in
theorem W4_arg6 (c : Dev nD) : (W4 m ρ c (Proc.devRef .tc main_arg6) : S64.Idx → EReal) = m ((c : Thread nD τ).loc main_arg6) := by
  refine (W4_of_ne m ρ c main_arg6 (by decide)).trans ?_
  show StableHlo.after hostOps0_2 (W2 m ρ c) (Proc.devRef .tc main_arg6) = _
  after_results <;> rfl

set_option maxHeartbeats 4000000 in
theorem W4_arg7 (c : Dev nD) : (W4 m ρ c (Proc.devRef .tc main_arg7) : S64x128.Idx → EReal) = m ((c : Thread nD τ).loc main_arg7) := by
  refine (W4_of_ne m ρ c main_arg7 (by decide)).trans ?_
  show StableHlo.after hostOps0_2 (W2 m ρ c) (Proc.devRef .tc main_arg7) = _
  after_results <;> rfl

/-- The hidden array the first call leaves. -/
theorem W4_v20_0 (c : Dev nD) : (W4 m ρ c (Proc.devRef .tc main_v20_0) : S50000x128.Idx → EReal)
    = hidArr (V3 m ρ c main_v15) (V3 m ρ c main_arg0) (V3 m ρ c main_v16) (V3 m ρ c main_v17) (V3 m ρ c main_v19) :=
  (W4_arr m ρ c 6).trans (final0_6 (V3 m ρ) c)

/-- The projected array the first call leaves. -/
theorem W4_v20_1 (c : Dev nD) : (W4 m ρ c (Proc.devRef .tc main_v20_1) : S50000x64.Idx → EReal)
    = projArr (V3 m ρ c main_v15) (V3 m ρ c main_arg0) (V3 m ρ c main_v16) (V3 m ρ c main_v17) (V3 m ρ c main_v19) (V3 m ρ c main_v18) :=
  (W4_arr m ρ c 7).trans (final0_7 (V3 m ρ) c)

/-! ## The second call's arrays -/

set_option maxHeartbeats 4000000 in
theorem V5_v30 (c : Dev nD) : (V5 m ρ c main_v30 : S50000x64.Idx → EReal)
    = agg2V (W4 m ρ c (Proc.devRef .tc main_v20_1)) (m ((c : Thread nD τ).loc main_arg1)) := by
  show StableHlo.after hostOps1 (W4 m ρ c) (Proc.devRef .tc main_v30) = _
  after_results
  rw [W4_v1, W4_v5]
  rfl

set_option maxHeartbeats 4000000 in
theorem V5_v20_0 (c : Dev nD) : (V5 m ρ c main_v20_0 : S50000x128.Idx → EReal) = W4 m ρ c (Proc.devRef .tc main_v20_0) := by
  show StableHlo.after hostOps1 (W4 m ρ c) (Proc.devRef .tc main_v20_0) = _
  after_results

set_option maxHeartbeats 4000000 in
theorem V5_v31 (c : Dev nD) : (V5 m ρ c main_v31 : S128x64.Idx → EReal)
    = transpose S128x64 [1, 0] (m ((c : Thread nD τ).loc main_arg7)) transposes_S64x128_S128x64_1_0 := by
  show StableHlo.after hostOps1 (W4 m ρ c) (Proc.devRef .tc main_v31) = _
  after_results
  rw [W4_arg7]

set_option maxHeartbeats 4000000 in
theorem V5_v32 (c : Dev nD) : (V5 m ρ c main_v32 : S1x64.Idx → EReal)
    = shapeCast S1x64 (m ((c : Thread nD τ).loc main_arg6)) shapeCasts_S64_S1x64 := by
  show StableHlo.after hostOps1 (W4 m ρ c) (Proc.devRef .tc main_v32) = _
  after_results
  rw [W4_arg6]
  rfl

end Cert.KernelIdeal.Hand

end
-- ==== Proof.LibHostIndex.lean ====
/-
  THE HOST'S GATHER AND SCATTER-ADD READ AT AN INDEX, for the dimension numbers that row indexing of a matrix and
  cell indexing of a matrix lower to. General lemmas over the extents `N`, `M`, `R`, `C`: nothing here mentions a program.

  * Row scatter-add (a segment sum, `x.at[idx].add(upd)` on rows): operand `[N, C]`, scatter indices `[R, 1]`, updates
    `[R, C]`. Row `e` of the updates lands on row `idx[e, 0]` of the operand, the index read as a signed integer and NOT
    clamped, the column kept; a row whose index is outside `[0, N)` is dropped. So element `(i, c)` of the result is
    `x (i, c)` plus the sum of `upd (e, c)` over the rows `e` whose index is `i` (`scatterAdd_rows_apply`).
  * Cell scatter-add (`x.at[rows, cols].add(v)` on a matrix): operand `[N, M]`, scatter indices `[R, 2]`, updates `[R]`.
    Update `e` lands on cell `(idx[e, 0], idx[e, 1])`, both read signed and not clamped; so element `(i, j)` of the result is
    `x (i, j)` plus the sum of `upd e` over the `e` whose index pair is `(i, j)` (`scatterAdd_cells_apply`).
  * Vector scatter-add (`x.at[idx].add(v)` on a vector): operand `[N]`, scatter indices `[R, 1]`, updates `[R]`: element `i`
    of the result is `x i` plus the sum of `upd e` over the `e` whose signed index is `i` (`scatterAdd_vec_apply`).
  * Row gather (`x[idx]` on a matrix): operand `[N, C]`, start indices `[R, 1]`, result `[R, C]`. Row `e` of the result is
    the operand's row `idx[e, 0]`, the index read signed and CLAMPED into `[0, N − 1]` (`gather_rows_apply`); and the
    same for a vector operand `[N]` (`gather_vec_apply`).

  Each scatter lemma has the same two steps. First the landing place of one update index is computed coordinate by
  coordinate from the dimension numbers (the start is the signed index on the axis the map names, the window coordinate
  is the update's own coordinate on a window axis and zero on an inserted one), which says exactly when an update lands
  on a given element (`…_resultIdx_iff`). Then the sum over the update indices that land there is re-indexed by the
  update's row alone, the other coordinate being forced.
-/
import Idealize.ShloMosaic.PureOps.Ideal
import Idealize.ShloMosaic.Lib.ValueIdx

noncomputable section

open scoped BigOperators

namespace Cert.Lib.HostIndex

open Idealize.ShloMosaic Idealize.ShloMosaic.ValueIdx

/-! ## Row scatter-add: operand `[N, C]`, scatter indices `[R, 1]`, updates `[R, C]` -/

/-- The dimension numbers of a scatter of whole rows: the updates' axis 1 is the window axis (it goes to the operand's
    axis 1), the operand's axis 0 is inserted and is the one the scatter index names. Their conditions `wf` are decided
    on a program's literal shapes. -/
abbrev rowScatterDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section RowScatter
variable {N R C w : Nat} (wf : ScatterDims.WF ⟨2, ![N, C]⟩ ⟨2, ![R, 1]⟩ ⟨2, ![R, C]⟩ [1] [0] [0] 1)

/-- On the row axis the window of update `(e, c')` starts at the signed index `idx[e, 0]` … -/
theorem rowScatter_start0 (idx : IVec ⟨2, ![R, 1]⟩ w) (e : Fin R) (c' : Fin C) :
    (rowScatterDims N R C wf).start (ix2 e c') idx 0 = (idx (ix2 e 0)).toInt := by
  unfold ScatterDims.start
  rw [dif_pos (show (0 : Fin 2) ∈ (rowScatterDims N R C wf).scatterDimsToOperandDims from List.mem_singleton.mpr rfl)]
  have hsi : (rowScatterDims N R C wf).siIdx (ix2 e c') ⟨List.idxOf (0 : Fin 2) (rowScatterDims N R C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and on the column axis, which the map does not name, at `0`. -/
theorem rowScatter_start1 (idx : IVec ⟨2, ![R, 1]⟩ w) (e : Fin R) (c' : Fin C) :
    (rowScatterDims N R C wf).start (ix2 e c') idx 1 = 0 := by
  unfold ScatterDims.start
  rw [dif_neg (show (1 : Fin 2) ∉ ([0] : List (Fin 2)) by decide)]

/-- The row axis is inserted: the window coordinate there is `0` … -/
theorem rowScatter_window0 (e : Fin R) (c' : Fin C) :
    (rowScatterDims N R C wf).window (ix2 e c') 0 = 0 := by
  have h : (0 : Fin 2) ∉ (rowScatterDims N R C wf).sKept := by
    show (0 : Fin 2) ∉ (List.finRange 2).filter (· ∉ ([0] : List (Fin 2)))
    decide
  unfold ScatterDims.window
  rw [dif_neg h]

/-- … and on the column axis it is the update's own column. -/
theorem rowScatter_window1 (e : Fin R) (c' : Fin C) :
    (rowScatterDims N R C wf).window (ix2 e c') 1 = c'.val := by
  unfold ScatterDims.window
  have h : (1 : Fin 2) ∈ (rowScatterDims N R C wf).sKept := by
    show (1 : Fin 2) ∈ (List.finRange 2).filter (· ∉ ([0] : List (Fin 2)))
    decide
  rw [dif_pos h]
  rfl

/-- WHERE AN UPDATE LANDS: update `(e, c')` lands on element `(i, c)` exactly when its signed index is `i` and its
    column is `c`. (When the index is outside `[0, N)` the update lands nowhere, and the right side fails for every `i`.) -/
theorem rowScatter_resultIdx_iff (idx : IVec ⟨2, ![R, 1]⟩ w) (e : Fin R) (c' : Fin C) (i : Fin N) (c : Fin C) :
    (rowScatterDims N R C wf).resultIdx? (ix2 e c') idx = some (ix2 i c)
      ↔ (idx (ix2 e 0)).toInt = (i.val : Int) ∧ c' = c := by
  have hs0 := rowScatter_start0 wf idx e c'
  have hs1 := rowScatter_start1 wf idx e c'
  have hw0 := rowScatter_window0 wf e c'
  have hw1 := rowScatter_window1 wf e c'
  have hi : i.val < N := i.isLt
  have hc' : c'.val < C := c'.isLt
  unfold ScatterDims.resultIdx?
  split
  · rename_i h
    rw [Option.some.injEq]
    constructor
    · intro hf
      have h0 : ((rowScatterDims N R C wf).start (ix2 e c') idx 0 + ((rowScatterDims N R C wf).window (ix2 e c') 0 : Int)).toNat = i.val :=
        congrArg (fun f : (⟨2, ![N, C]⟩ : Shape).Idx => (f 0).val) hf
      have h1 : ((rowScatterDims N R C wf).start (ix2 e c') idx 1 + ((rowScatterDims N R C wf).window (ix2 e c') 1 : Int)).toNat = c.val :=
        congrArg (fun f : (⟨2, ![N, C]⟩ : Shape).Idx => (f 1).val) hf
      have g0 := (h 0).1
      rw [hs0, hw0] at h0 g0
      rw [hs1, hw1] at h1
      refine ⟨by omega, Fin.ext (by omega)⟩
    · rintro ⟨ht, rfl⟩
      funext a; refine Fin.ext ?_
      match a with
      | ⟨0, _⟩ =>
        show ((rowScatterDims N R C wf).start (ix2 e c') idx 0 + ((rowScatterDims N R C wf).window (ix2 e c') 0 : Int)).toNat = i.val
        rw [hs0, hw0]; omega
      | ⟨1, _⟩ =>
        show ((rowScatterDims N R C wf).start (ix2 e c') idx 1 + ((rowScatterDims N R C wf).window (ix2 e c') 1 : Int)).toNat = c'.val
        rw [hs1, hw1]; omega
  · rename_i h
    refine iff_of_false (by simp) ?_
    rintro ⟨ht, rfl⟩
    apply h
    intro a
    match a with
    | ⟨0, _⟩ =>
      show 0 ≤ (rowScatterDims N R C wf).start (ix2 e c') idx 0 + ((rowScatterDims N R C wf).window (ix2 e c') 0 : Int)
        ∧ (rowScatterDims N R C wf).start (ix2 e c') idx 0 + ((rowScatterDims N R C wf).window (ix2 e c') 0 : Int) < (N : Int)
      rw [hs0, hw0]; omega
    | ⟨1, _⟩ =>
      show 0 ≤ (rowScatterDims N R C wf).start (ix2 e c') idx 1 + ((rowScatterDims N R C wf).window (ix2 e c') 1 : Int)
        ∧ (rowScatterDims N R C wf).start (ix2 e c') idx 1 + ((rowScatterDims N R C wf).window (ix2 e c') 1 : Int) < (C : Int)
      rw [hs1, hw1]; omega

/-- THE ROW SCATTER-ADD READ AT `(i, c)`: the operand's element plus the sum of column `c` of the update rows whose index,
    read signed, is `i`. The sum over the update indices `(e, c')` that land on `(i, c)` is split by coordinates; for each
    row `e` the inner sum over `c'` has the one term `c' = c`, present exactly when the row's index is `i`. -/
theorem scatterAdd_rows_apply (x : (⟨2, ![N, C]⟩ : Shape).Idx → EReal) (idx : IVec ⟨2, ![R, 1]⟩ w)
    (upd : (⟨2, ![R, C]⟩ : Shape).Idx → EReal) (i : Fin N) (c : Fin C) :
    Ideal.hostScatterAdd (rowScatterDims N R C wf) x idx upd (ix2 i c)
      = x (ix2 i c) + ∑ e ∈ Finset.univ.filter (fun e : Fin R => (idx (ix2 e 0)).toInt = (i.val : Int)), upd (ix2 e c) := by
  unfold Ideal.hostScatterAdd
  congr 1
  rw [Finset.sum_filter, Finset.sum_filter, sum_idx2]
  refine Finset.sum_congr rfl fun e _ => ?_
  simp only [rowScatter_resultIdx_iff]
  by_cases hq : (idx (ix2 e 0)).toInt = (i.val : Int)
  · simp only [hq, true_and, if_true]
    rw [Finset.sum_ite_eq']
    simp
  · simp [hq]

end RowScatter

/-! ## Cell scatter-add: operand `[N, M]`, scatter indices `[R, 2]`, updates `[R]` -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-- The dimension numbers of a scatter of single cells: the updates have no window axis, both operand axes are
    inserted, and the scatter index's two components name the operand's axes 0 and 1 in order. Their conditions `wf`
    are decided on a program's literal shapes. -/
abbrev cellScatterDims (N M R : Nat)
    (wf : ScatterDims.WF ⟨2, ![N, M]⟩ ⟨2, ![R, 2]⟩ ⟨1, ![R]⟩ [] [0, 1] [0, 1] 1) :
    ScatterDims ⟨2, ![N, M]⟩ ⟨2, ![R, 2]⟩ ⟨1, ![R]⟩ where
  updateWindowDims := []
  insertedWindowDims := [0, 1]
  scatterDimsToOperandDims := [0, 1]
  indexVectorDim := 1
  wf := wf

section CellScatter
variable {N M R w : Nat} (wf : ScatterDims.WF ⟨2, ![N, M]⟩ ⟨2, ![R, 2]⟩ ⟨1, ![R]⟩ [] [0, 1] [0, 1] 1)

/-- On the row axis update `e` starts at the signed index `idx[e, 0]` … -/
theorem cellScatter_start0 (idx : IVec ⟨2, ![R, 2]⟩ w) (e : Fin R) :
    (cellScatterDims N M R wf).start (ix1 e) idx 0 = (idx (ix2 e 0)).toInt := by
  have hm : (0 : Fin 2) ∈ (cellScatterDims N M R wf).scatterDimsToOperandDims := by
    show (0 : Fin 2) ∈ ([0, 1] : List (Fin 2))
    decide
  unfold ScatterDims.start
  rw [dif_pos hm]
  have hsi : (cellScatterDims N M R wf).siIdx (ix1 e) ⟨List.idxOf (0 : Fin 2) (cellScatterDims N M R wf).scatterDimsToOperandDims,
      List.idxOf_lt_length_iff.2 hm⟩ = ix2 e 0 := by
    funext b; refine Fin.ext ?_
    match b with
    | ⟨0, _⟩ => rfl
    | ⟨1, _⟩ => rfl
  rw [hsi]

/-- … and on the column axis at the signed index `idx[e, 1]`. -/
theorem cellScatter_start1 (idx : IVec ⟨2, ![R, 2]⟩ w) (e : Fin R) :
    (cellScatterDims N M R wf).start (ix1 e) idx 1 = (idx (ix2 e 1)).toInt := by
  have hm : (1 : Fin 2) ∈ (cellScatterDims N M R wf).scatterDimsToOperandDims := by
    show (1 : Fin 2) ∈ ([0, 1] : List (Fin 2))
    decide
  unfold ScatterDims.start
  rw [dif_pos hm]
  have hsi : (cellScatterDims N M R wf).siIdx (ix1 e) ⟨List.idxOf (1 : Fin 2) (cellScatterDims N M R wf).scatterDimsToOperandDims,
      List.idxOf_lt_length_iff.2 hm⟩ = ix2 e 1 := by
    funext b; refine Fin.ext ?_
    match b with
    | ⟨0, _⟩ => rfl
    | ⟨1, _⟩ => rfl
  rw [hsi]

/-- Both operand axes are inserted: the window coordinate is `0` on each. -/
theorem cellScatter_window (e : Fin R) (a : Fin 2) :
    (cellScatterDims N M R wf).window (ix1 e) a = 0 := by
  have h : a ∉ (cellScatterDims N M R wf).sKept := by
    show a ∉ (List.finRange 2).filter (· ∉ ([0, 1] : List (Fin 2)))
    revert a; decide
  unfold ScatterDims.window
  rw [dif_neg h]

/-- WHERE AN UPDATE LANDS: update `e` lands on cell `(i, j)` exactly when its signed index pair is `(i, j)`. -/
theorem cellScatter_resultIdx_iff (idx : IVec ⟨2, ![R, 2]⟩ w) (e : Fin R) (i : Fin N) (j : Fin M) :
    (cellScatterDims N M R wf).resultIdx? (ix1 e) idx = some (ix2 i j)
      ↔ (idx (ix2 e 0)).toInt = (i.val : Int) ∧ (idx (ix2 e 1)).toInt = (j.val : Int) := by
  have hs0 := cellScatter_start0 wf idx e
  have hs1 := cellScatter_start1 wf idx e
  have hw0 := cellScatter_window wf e 0
  have hw1 := cellScatter_window wf e 1
  have hi : i.val < N := i.isLt
  have hj : j.val < M := j.isLt
  unfold ScatterDims.resultIdx?
  split
  · rename_i h
    rw [Option.some.injEq]
    constructor
    · intro hf
      have h0 : ((cellScatterDims N M R wf).start (ix1 e) idx 0 + ((cellScatterDims N M R wf).window (ix1 e) 0 : Int)).toNat = i.val :=
        congrArg (fun f : (⟨2, ![N, M]⟩ : Shape).Idx => (f 0).val) hf
      have h1 : ((cellScatterDims N M R wf).start (ix1 e) idx 1 + ((cellScatterDims N M R wf).window (ix1 e) 1 : Int)).toNat = j.val :=
        congrArg (fun f : (⟨2, ![N, M]⟩ : Shape).Idx => (f 1).val) hf
      have g0 := (h 0).1
      have g1 := (h 1).1
      rw [hs0, hw0] at h0 g0
      rw [hs1, hw1] at h1 g1
      exact ⟨by omega, by omega⟩
    · rintro ⟨ht0, ht1⟩
      funext a; refine Fin.ext ?_
      match a with
      | ⟨0, _⟩ =>
        show ((cellScatterDims N M R wf).start (ix1 e) idx 0 + ((cellScatterDims N M R wf).window (ix1 e) 0 : Int)).toNat = i.val
        rw [hs0, hw0]; omega
      | ⟨1, _⟩ =>
        show ((cellScatterDims N M R wf).start (ix1 e) idx 1 + ((cellScatterDims N M R wf).window (ix1 e) 1 : Int)).toNat = j.val
        rw [hs1, hw1]; omega
  · rename_i h
    refine iff_of_false (by simp) ?_
    rintro ⟨ht0, ht1⟩
    apply h
    intro a
    match a with
    | ⟨0, _⟩ =>
      show 0 ≤ (cellScatterDims N M R wf).start (ix1 e) idx 0 + ((cellScatterDims N M R wf).window (ix1 e) 0 : Int)
        ∧ (cellScatterDims N M R wf).start (ix1 e) idx 0 + ((cellScatterDims N M R wf).window (ix1 e) 0 : Int) < (N : Int)
      rw [hs0, hw0]; omega
    | ⟨1, _⟩ =>
      show 0 ≤ (cellScatterDims N M R wf).start (ix1 e) idx 1 + ((cellScatterDims N M R wf).window (ix1 e) 1 : Int)
        ∧ (cellScatterDims N M R wf).start (ix1 e) idx 1 + ((cellScatterDims N M R wf).window (ix1 e) 1 : Int) < (M : Int)
      rw [hs1, hw1]; omega

/-- THE CELL SCATTER-ADD READ AT `(i, j)`: the operand's element plus the sum of the updates whose index pair, read
    signed, is `(i, j)`. -/
theorem scatterAdd_cells_apply (x : (⟨2, ![N, M]⟩ : Shape).Idx → EReal) (idx : IVec ⟨2, ![R, 2]⟩ w)
    (upd : (⟨1, ![R]⟩ : Shape).Idx → EReal) (i : Fin N) (j : Fin M) :
    Ideal.hostScatterAdd (cellScatterDims N M R wf) x idx upd (ix2 i j)
      = x (ix2 i j) + ∑ e ∈ Finset.univ.filter (fun e : Fin R =>
          (idx (ix2 e 0)).toInt = (i.val : Int) ∧ (idx (ix2 e 1)).toInt = (j.val : Int)), upd (ix1 e) := by
  unfold Ideal.hostScatterAdd
  congr 1
  rw [Finset.sum_filter, Finset.sum_filter, sum_idx1]
  refine Finset.sum_congr rfl fun e _ => ?_
  simp only [cellScatter_resultIdx_iff]

end CellScatter

/-! ## Vector scatter-add: operand `[N]`, scatter indices `[R, 1]`, updates `[R]` -/

/-- The dimension numbers of `x.at[idx].add(v)` on a vector with the indices as a column: the updates have no window
    axis, the operand's one axis is inserted and named by the scatter index. -/
abbrev vecScatterDims (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

section VecScatter
variable {N R w : Nat} (wf : ScatterDims.WF ⟨1, ![N]⟩ ⟨2, ![R, 1]⟩ ⟨1, ![R]⟩ [] [0] [0] 1)

/-- Update `e` starts at the signed index `idx[e, 0]` … -/
theorem vecScatter_start (idx : IVec ⟨2, ![R, 1]⟩ w) (e : Fin R) :
    (vecScatterDims N R wf).start (ix1 e) idx 0 = (idx (ix2 e 0)).toInt := by
  unfold ScatterDims.start
  rw [dif_pos (show (0 : Fin 1) ∈ (vecScatterDims N R wf).scatterDimsToOperandDims from List.mem_singleton.mpr rfl)]
  have hsi : (vecScatterDims N R wf).siIdx (ix1 e) ⟨List.idxOf (0 : Fin 1) (vecScatterDims N R wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and, the axis being inserted, its window coordinate is `0`. -/
theorem vecScatter_window (e : Fin R) :
    (vecScatterDims N R wf).window (ix1 e) 0 = 0 := by
  have h : (0 : Fin 1) ∉ (vecScatterDims N R wf).sKept := by
    show (0 : Fin 1) ∉ (List.finRange 1).filter (· ∉ ([0] : List (Fin 1)))
    decide
  unfold ScatterDims.window
  rw [dif_neg h]

/-- WHERE AN UPDATE LANDS: update `e` lands on element `i` exactly when its signed index is `i`. -/
theorem vecScatter_resultIdx_iff (idx : IVec ⟨2, ![R, 1]⟩ w) (e : Fin R) (i : Fin N) :
    (vecScatterDims N R wf).resultIdx? (ix1 e) idx = some (ix1 i) ↔ (idx (ix2 e 0)).toInt = (i.val : Int) := by
  have hs0 := vecScatter_start wf idx e
  have hw0 := vecScatter_window wf e
  have hi : i.val < N := i.isLt
  unfold ScatterDims.resultIdx?
  split
  · rename_i h
    rw [Option.some.injEq]
    constructor
    · intro hf
      have h0 : ((vecScatterDims N R wf).start (ix1 e) idx 0 + ((vecScatterDims N R wf).window (ix1 e) 0 : Int)).toNat = i.val :=
        congrArg (fun f : (⟨1, ![N]⟩ : Shape).Idx => (f 0).val) hf
      have g0 := (h 0).1
      rw [hs0, hw0] at h0 g0
      omega
    · intro ht
      funext a; refine Fin.ext ?_
      match a with
      | ⟨0, _⟩ =>
        show ((vecScatterDims N R wf).start (ix1 e) idx 0 + ((vecScatterDims N R wf).window (ix1 e) 0 : Int)).toNat = i.val
        rw [hs0, hw0]; omega
  · rename_i h
    refine iff_of_false (by simp) ?_
    intro ht
    apply h
    intro a
    match a with
    | ⟨0, _⟩ =>
      show 0 ≤ (vecScatterDims N R wf).start (ix1 e) idx 0 + ((vecScatterDims N R wf).window (ix1 e) 0 : Int)
        ∧ (vecScatterDims N R wf).start (ix1 e) idx 0 + ((vecScatterDims N R wf).window (ix1 e) 0 : Int) < (N : Int)
      rw [hs0, hw0]; omega

/-- THE VECTOR SCATTER-ADD READ AT `i`: the operand's element plus the sum of the updates whose index, read signed,
    is `i`. -/
theorem scatterAdd_vec_apply (x : (⟨1, ![N]⟩ : Shape).Idx → EReal) (idx : IVec ⟨2, ![R, 1]⟩ w)
    (upd : (⟨1, ![R]⟩ : Shape).Idx → EReal) (i : Fin N) :
    Ideal.hostScatterAdd (vecScatterDims N R wf) x idx upd (ix1 i)
      = x (ix1 i) + ∑ e ∈ Finset.univ.filter (fun e : Fin R => (idx (ix2 e 0)).toInt = (i.val : Int)), upd (ix1 e) := by
  unfold Ideal.hostScatterAdd
  congr 1
  rw [Finset.sum_filter, Finset.sum_filter, sum_idx1]
  refine Finset.sum_congr rfl fun e _ => ?_
  simp only [vecScatter_resultIdx_iff]

end VecScatter

/-! ## Row gather: operand `[N, C]`, start indices `[R, 1]`, result `[R, C]` -/

/-- The dimension numbers of a gather of whole rows: the result's axis 1 is the offset axis (it reads the operand's
    axis 1, kept whole), the operand's axis 0 is collapsed and is the one the start index names. Their conditions `wf`
    are decided on a program's literal shapes. -/
abbrev rowGatherDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

section RowGather
variable {α : Type} {N R C w : Nat}

/-- THE ROW GATHER READ AT `(e, c)`: the operand at row `idx[e, 0]`, read signed and clamped into `[0, N − 1]`, and
    column `c`. On the row axis the operand coordinate is the clamped start alone (the axis is collapsed: no offset); on
    the column axis the start is `0` (the map does not name it) and the offset is the result's own column. -/
theorem gather_rows_apply (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (c : Fin C) :
    Host.gather (rowGatherDims N R C wf) x idx (ix2 e c)
      = x (ix2 ⟨min (idx (ix2 e 0)).toInt.toNat (N - 1), by omega⟩ c) := by
  unfold Host.gather
  congr 1
  funext a
  refine Fin.ext ?_
  match a with
  | ⟨0, _⟩ =>
    show (rowGatherDims N R C wf).start (ix2 e c) idx 0 + (rowGatherDims N R C wf).batchCoord (ix2 e c) 0
      + (rowGatherDims N R C wf).offCoord (ix2 e c) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N R C wf).startIndexMap from List.mem_singleton.mpr rfl)]
    have hsi : (rowGatherDims N R C wf).siIdx (ix2 e c) ⟨List.idxOf (0 : Fin 2) (rowGatherDims N R C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N R C wf).start (ix2 e c) idx 1 + (rowGatherDims N R C wf).batchCoord (ix2 e c) 1
      + (rowGatherDims N R C wf).offCoord (ix2 e c) 1 = c.val
    rw [GatherDims.batchCoord_eq_zero _ _ _ List.not_mem_nil]
    have hs : (rowGatherDims N R C wf).start (ix2 e c) idx 1 = 0 := by
      unfold GatherDims.start
      rw [dif_neg (show (1 : Fin 2) ∉ ([0] : List (Fin 2)) by decide)]
    have hk : (1 : Fin 2) ∈ (rowGatherDims N R C wf).sKept := by
      show (1 : Fin 2) ∈ (List.finRange 2).filter (· ∉ (([0] : List (Fin 2)) ++ []))
      decide
    have ho : (rowGatherDims N R C wf).offCoord (ix2 e c) 1 = c.val := by
      unfold GatherDims.offCoord
      rw [dif_pos hk]
      rfl
    rw [hs, ho]
    omega

end RowGather

/-! ## Vector gather: operand `[N]`, start indices `[R, 1]`, result `[R]` -/

/-- The dimension numbers of `x[idx]` on a vector with the indices as a column: no offset axis, the operand's one axis
    collapsed and named by the start index. -/
abbrev vecGatherDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

section VecGather
variable {α : Type} {N R w : Nat}

/-- THE VECTOR GATHER READ AT `e`: the operand at `idx[e, 0]`, read signed and clamped into `[0, N − 1]`. -/
theorem gather_vec_apply (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (vecGatherDims N R wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (vecGatherDims N R wf).start (ix1 e) idx 0 + (vecGatherDims N R wf).batchCoord (ix1 e) 0
    + (vecGatherDims N R wf).offCoord (ix1 e) 0 = min (idx (ix2 e 0)).toInt.toNat (N - 1)
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N R wf).startIndexMap from List.mem_singleton.mpr rfl)]
  have hsi : (vecGatherDims N R wf).siIdx (ix1 e) ⟨List.idxOf (0 : Fin 1) (vecGatherDims N R wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end VecGather

end Cert.Lib.HostIndex

end
-- ==== Proof.LibScatterDims.lean ====
/-
  A scatter's dimension numbers are determined by their four data fields: a record over the row-scatter shapes whose
  update window axis is 1, whose inserted axis is 0, whose index component names operand axis 0 and whose index vector is
  axis 1 IS the row scatter's record (the remaining field is a proof). So a lemma about the row scatter applies to any
  record printed with those numbers, whatever proof it carries.

  Hence the host's accumulating row scatter, for ANY such record and any extents, read at an element: element `(i, c)`
  of the result is the operand's element plus the sum of column `c` of the update rows whose index word, read as a
  signed integer, is `i`; a row whose index is not a row of the operand contributes nothing.
-/
import proofs.«109176_j68865505624262_2_alg».proof.Proof.LibHostIndex

noncomputable section

open scoped BigOperators

namespace Cert.Lib.HostIndex

open Idealize.ShloMosaic Idealize.ShloMosaic.ValueIdx

theorem eq_rowScatterDims {N R C : Nat} (d : ScatterDims ⟨2, ![N, C]⟩ ⟨2, ![R, 1]⟩ ⟨2, ![R, C]⟩)
    (h1 : d.updateWindowDims = [1]) (h2 : d.insertedWindowDims = [0]) (h3 : d.scatterDimsToOperandDims = [0])
    (h4 : d.indexVectorDim = 1) : ∃ wf, d = rowScatterDims N R C wf := by
  obtain ⟨u, i, s, v, wf⟩ := d
  dsimp only at h1 h2 h3 h4
  subst h1 h2 h3 h4
  exact ⟨wf, rfl⟩

/-- THE HOST'S ROW SCATTER-ADD OF ANY RECORD WITH THE ROW NUMBERS, READ AT `(i, c)`: the operand's element plus the
    sum of column `c` of the update rows whose index, read signed, is `i` (rows indexed outside `[0, N)` land
    nowhere). -/
theorem hostScatterAdd_rows_apply {N R C w : Nat} (d : ScatterDims ⟨2, ![N, C]⟩ ⟨2, ![R, 1]⟩ ⟨2, ![R, C]⟩)
    (h1 : d.updateWindowDims = [1]) (h2 : d.insertedWindowDims = [0]) (h3 : d.scatterDimsToOperandDims = [0])
    (h4 : d.indexVectorDim = 1)
    (x : (⟨2, ![N, C]⟩ : Shape).Idx → EReal) (idx : IVec ⟨2, ![R, 1]⟩ w)
    (upd : (⟨2, ![R, C]⟩ : Shape).Idx → EReal) (i : Fin N) (c : Fin C) :
    Host.scatterAdd (F := Ideal) (φ := .f32) d x idx upd (ix2 i c)
      = x (ix2 i c) + ∑ e ∈ Finset.univ.filter (fun e : Fin R => (idx (ix2 e 0)).toInt = (i.val : Int)), upd (ix2 e c) := by
  obtain ⟨wf, rfl⟩ := eq_rowScatterDims d h1 h2 h3 h4
  exact scatterAdd_rows_apply wf x idx upd i c

end Cert.Lib.HostIndex

end
-- ==== Proof.EdgeOps.lean ====
/-
  The edge list as machine words, and the two ways of dropping self-loops.

  The edge list is a 2 x 800000 array of 32-bit words: row 0 the sources, row 1 the destinations. A source word `s` is
  normalised as an index is (`s + 50000` when negative) and then clamped into `[0, 49999]` by the row gather: `gNode`.
  One program scatters edge `e` to the word `dstMW e` — the destination, or the out-of-range 50000 when source and
  destination words are equal —, the other scatters it to the destination itself after multiplying the row by
  `maskE e`, which is 1 when the two words differ and 0 when they are equal. A scatter drops rows whose index, read as a
  signed integer, is not a node. So the edges landing on node `n` are `SK n` on one side and `SR n` on the other, and
  a sum over `SK n` is the sum over `SR n` of the masked terms (`sum_SK_eq`): a self-loop is absent from `SK n` and
  contributes a zero to the masked sum, any other edge is in both with mask 1.

  Also here: row `r` of the edge list as a vector read at `e`, a vector as a column read at `(e, 0)`, and a scalar
  broadcast read anywhere.
-/
import Idealize.ShloMosaic.PureOps.Ideal
import Idealize.ShloMosaic.Lib.Pipeline.Value
import Idealize.ShloMosaic.Lib.ValueIdx

noncomputable section

open scoped BigOperators

namespace Cert.Gcn

open Idealize.ShloMosaic Idealize.ShloMosaic.ValueIdx

abbrev EdgeList := IVec ⟨2, ![2, 800000]⟩ 32

/-- The source word of edge `e`. -/
def srcW (ei : EdgeList) (e : Fin 800000) : BitVec 32 := ei (ix2 0 e)
/-- The destination word of edge `e`. -/
def dstW (ei : EdgeList) (e : Fin 800000) : BitVec 32 := ei (ix2 1 e)
/-- A negative index word counted from the end. -/
def normW (s : BitVec 32) : BitVec 32 := Scalar.select (IntOp.cmpi .slt s 0#32) (IntOp.addi s 50000#32) s
/-- The node whose features edge `e` reads. -/
def gNode (ei : EdgeList) (e : Fin 800000) : Fin 50000 := ⟨min (normW (srcW ei e)).toInt.toNat (50000 - 1), by omega⟩
/-- The scatter index with self-loops sent out of range. -/
def dstMW (ei : EdgeList) (e : Fin 800000) : BitVec 32 :=
  Scalar.select (IntOp.cmpi .eq (srcW ei e) (dstW ei e)) 50000#32 (dstW ei e)
/-- The self-loop mask as a float. -/
def maskE (ei : EdgeList) (e : Fin 800000) : EReal := (((IntOp.cmpi .ne (srcW ei e) (dstW ei e)).toNat : ℝ) : EReal)
/-- The edges landing on node `n`, self-loops sent out of range. -/
def SK (ei : EdgeList) (n : Fin 50000) : Finset (Fin 800000) :=
  Finset.univ.filter fun e => (dstMW ei e).toInt = (n.val : Int)
/-- The edges whose destination is node `n`. -/
def SR (ei : EdgeList) (n : Fin 50000) : Finset (Fin 800000) :=
  Finset.univ.filter fun e => (dstW ei e).toInt = (n.val : Int)

theorem dstMW_of_eq (ei : EdgeList) (e : Fin 800000) (h : srcW ei e = dstW ei e) : dstMW ei e = 50000#32 := by
  unfold dstMW IntOp.cmpi Scalar.select
  simp [h]
theorem dstMW_of_ne (ei : EdgeList) (e : Fin 800000) (h : srcW ei e ≠ dstW ei e) : dstMW ei e = dstW ei e := by
  have hb : (srcW ei e == dstW ei e) = false := beq_eq_false_iff_ne.mpr h
  unfold dstMW IntOp.cmpi Scalar.select
  simp [hb]
theorem maskE_of_eq (ei : EdgeList) (e : Fin 800000) (h : srcW ei e = dstW ei e) : maskE ei e = 0 := by
  unfold maskE IntOp.cmpi
  simp [h]
theorem maskE_of_ne (ei : EdgeList) (e : Fin 800000) (h : srcW ei e ≠ dstW ei e) : maskE ei e = 1 := by
  have hb : (srcW ei e != dstW ei e) = true := bne_iff_ne.mpr h
  unfold maskE IntOp.cmpi
  simp [hb]

/-- A sum over the self-loop-free landing set is the masked sum over all edges ending at the node. -/
theorem sum_SK_eq (ei : EdgeList) (n : Fin 50000) (v : Fin 800000 → EReal) :
    ∑ e ∈ SK ei n, v e = ∑ e ∈ SR ei n, v e * maskE ei e := by
  unfold SK SR
  rw [Finset.sum_filter, Finset.sum_filter]
  refine Finset.sum_congr rfl fun e _ => ?_
  by_cases h : srcW ei e = dstW ei e
  · rw [dstMW_of_eq ei e h, maskE_of_eq ei e h, mul_zero]
    have h5 : (50000#32 : BitVec 32).toInt = 50000 := by decide
    have hn := n.isLt
    rw [if_neg (by rw [h5]; omega)]
    split_ifs <;> rfl
  · rw [dstMW_of_ne ei e h, maskE_of_ne ei e h, mul_one]

/-! ## Layout operations on the edge list, read at an index -/

theorem row0_apply (ei : EdgeList) (hs : (⟨2, ![2, 800000]⟩ : Shape).Slices ![0, 0] ⟨2, ![1, 800000]⟩)
    (hc : (⟨2, ![1, 800000]⟩ : Shape).ShapeCasts ⟨1, ![800000]⟩) (e : Fin 800000) :
    shapeCast ⟨1, ![800000]⟩ (extractStridedSlice ⟨2, ![1, 800000]⟩ ![0, 0] ei hs) hc (ix1 e) = srcW ei e :=
  (shapeCast_apply _ hc (ix1 e) (ix2 0 e) (by
    rewrite [Shape.rowMajor_val_two, Shape.rowMajor_val_one]; show 0 * 800000 + e.val = e.val; omega)).trans
    (extractStridedSlice_apply ![0, 0] ei hs (ix2 0 e) (ix2 0 e) fun a => by
      match a with
      | ⟨0, _⟩ => show 0 = 0 + 0; rfl
      | ⟨1, _⟩ => show e.val = 0 + e.val; omega)

theorem row1_apply (ei : EdgeList) (hs : (⟨2, ![2, 800000]⟩ : Shape).Slices ![1, 0] ⟨2, ![1, 800000]⟩)
    (hc : (⟨2, ![1, 800000]⟩ : Shape).ShapeCasts ⟨1, ![800000]⟩) (e : Fin 800000) :
    shapeCast ⟨1, ![800000]⟩ (extractStridedSlice ⟨2, ![1, 800000]⟩ ![1, 0] ei hs) hc (ix1 e) = dstW ei e :=
  (shapeCast_apply _ hc (ix1 e) (ix2 0 e) (by
    rewrite [Shape.rowMajor_val_two, Shape.rowMajor_val_one]; show 0 * 800000 + e.val = e.val; omega)).trans
    (extractStridedSlice_apply ![1, 0] ei hs (ix2 0 e) (ix2 1 e) fun a => by
      match a with
      | ⟨0, _⟩ => show 1 = 1 + 0; rfl
      | ⟨1, _⟩ => show e.val = 0 + e.val; omega)

/-- A vector over the edges as a column, read at `(e, 0)`. -/
theorem col_apply {α : Type} (v : (⟨1, ![800000]⟩ : Shape).Idx → α)
    (h : (⟨1, ![800000]⟩ : Shape).BroadcastsInDim ⟨2, ![800000, 1]⟩ (![0] : Fin 1 → Fin 2)) (e : Fin 800000) :
    broadcastInDim ⟨2, ![800000, 1]⟩ ![0] h v (ix2 e 0) = v (ix1 e) :=
  broadcastInDim_apply ![0] h v (ix2 e 0) (ix1 e) fun a => by
    match a with
    | ⟨0, _⟩ => rfl

end Cert.Gcn

end
-- ==== Proof.Spec.lean ====
/-
  Two graph-convolution layers, aggregated two ways, agree on the extended reals when the data are real.

  Nodes `ι`, edges `E`; edge `e` reads the features of node `g e`. Each node `n` has two sets of incoming edges:
  `SK n` (self-loops already removed) and `SR n` (all edges ending at `n`), together with a weight `mask e` per edge,
  related by: a sum of anything over `SK n` is the sum over `SR n` of the same thing times the mask (`hland`).

  One side (`hidK`, `outK`) sums the neighbours' features over `SK n`, applies the first layer, projects the hidden
  features by the second layer's neighbour weights FIRST and then sums the projected rows over `SK n`. The other side
  (`hidR`, `outR`) sums masked features over `SR n` in both layers and projects AFTER the sum.

  The first layers agree term by term (`hland` and commutativity of addition). The second layers differ by
  exchanging a sum over edges with a product by a weight: (Σₑ aₑ) · w = Σₑ aₑ · w, which on the extended reals needs
  every aₑ and w to be real (`sum_mul_of_isR`); the hidden features are real because the inputs are
  (`hidK_isR`).
-/
import Idealize.ShloMosaic.PureOps.Ideal

noncomputable section

open scoped BigOperators

namespace Cert.Gcn

/-- An extended real that is a real number. -/
def IsR (a : EReal) : Prop := ∃ r : ℝ, a = (r : EReal)

theorem IsR.zero : IsR 0 := ⟨0, rfl⟩
theorem IsR.one : IsR 1 := ⟨1, rfl⟩
theorem IsR.add {a b : EReal} : IsR a → IsR b → IsR (a + b) := fun ⟨r, hr⟩ ⟨s, hs⟩ => ⟨r + s, by rw [hr, hs, EReal.coe_add]⟩
theorem IsR.mul {a b : EReal} : IsR a → IsR b → IsR (a * b) := fun ⟨r, hr⟩ ⟨s, hs⟩ => ⟨r * s, by rw [hr, hs, EReal.coe_mul]⟩
theorem IsR.max {a b : EReal} : IsR a → IsR b → IsR (max a b) := fun ⟨r, hr⟩ ⟨s, hs⟩ =>
  ⟨Max.max r s, by rw [hr, hs]; exact (EReal.coe_strictMono.monotone.map_max).symm⟩
theorem IsR.sum {α : Type*} (s : Finset α) (f : α → EReal) (h : ∀ i ∈ s, IsR (f i)) : IsR (∑ i ∈ s, f i) :=
  Finset.sum_induction f IsR (fun _ _ => IsR.add) IsR.zero h

/-- A real factor distributes over a finite sum of reals. -/
theorem sum_mul_of_isR {α : Type*} (s : Finset α) (a : α → EReal) (w : EReal) (ha : ∀ i ∈ s, IsR (a i)) (hw : IsR w) :
    (∑ i ∈ s, a i) * w = ∑ i ∈ s, a i * w := by
  classical
  induction s using Finset.induction_on with
  | empty => simp
  | insert i s hi ih =>
    rw [Finset.sum_insert hi, Finset.sum_insert hi, ← ih fun j hj => ha j (Finset.mem_insert_of_mem hj)]
    obtain ⟨r, hr⟩ := ha i (Finset.mem_insert_self i s)
    obtain ⟨t, ht⟩ := IsR.sum s a fun j hj => ha j (Finset.mem_insert_of_mem hj)
    obtain ⟨u, hu⟩ := hw
    rw [hr, ht, hu, ← EReal.coe_add, ← EReal.coe_mul, ← EReal.coe_mul, ← EReal.coe_mul, ← EReal.coe_add, add_mul]

section Law

variable {ι E κ0 κ1 κ2 : Type*} [Fintype κ0] [Fintype κ1] [Fintype κ2]
variable (x : ι → κ0 → EReal) (g : E → ι) (SK SR : ι → Finset E) (mask : E → EReal)
variable (W1rel W1root : κ1 → κ0 → EReal) (b1 : κ1 → EReal) (W2rel W2root : κ2 → κ1 → EReal) (b2 : κ2 → EReal)

/-- The hidden features, neighbours summed over the self-loop-free edge sets. -/
def hidK (n : ι) (j : κ1) : EReal :=
  max ((∑ k, (∑ e ∈ SK n, x (g e) k) * W1rel j k + ∑ k, x n k * W1root j k) + b1 j) 0

/-- The output, hidden features projected before the neighbour sum. -/
def outK (n : ι) (o : κ2) : EReal :=
  ((∑ e ∈ SK n, ∑ j, hidK x g SK W1rel W1root b1 (g e) j * W2rel o j)
    + ∑ j, hidK x g SK W1rel W1root b1 n j * W2root o j) + b2 o

/-- The hidden features, masked neighbours summed over all incoming edges. -/
def hidR (n : ι) (j : κ1) : EReal :=
  max (((∑ k, (∑ e ∈ SR n, x (g e) k * mask e) * W1rel j k) + b1 j) + ∑ k, x n k * W1root j k) 0

/-- The output, hidden features projected after the masked neighbour sum. -/
def outR (n : ι) (o : κ2) : EReal :=
  ((∑ j, (∑ e ∈ SR n, hidR x g SR mask W1rel W1root b1 (g e) j * mask e) * W2rel o j) + b2 o)
    + ∑ j, hidR x g SR mask W1rel W1root b1 n j * W2root o j

variable (hland : ∀ (n : ι) (v : E → EReal), ∑ e ∈ SK n, v e = ∑ e ∈ SR n, v e * mask e)
include hland

theorem hid_eq (n : ι) (j : κ1) : hidK x g SK W1rel W1root b1 n j = hidR x g SR mask W1rel W1root b1 n j := by
  unfold hidK hidR
  congr 1
  rw [add_right_comm]
  congr 2
  refine Finset.sum_congr rfl fun k _ => ?_
  rw [hland n fun e => x (g e) k]

omit hland in
theorem hidK_isR (hx : ∀ n k, IsR (x n k)) (hW1rel : ∀ j k, IsR (W1rel j k)) (hW1root : ∀ j k, IsR (W1root j k))
    (hb1 : ∀ j, IsR (b1 j)) (n : ι) (j : κ1) : IsR (hidK x g SK W1rel W1root b1 n j) := by
  unfold hidK
  refine IsR.max (IsR.add (IsR.add ?_ ?_) (hb1 j)) IsR.zero
  · exact IsR.sum _ _ fun k _ => IsR.mul (IsR.sum _ _ fun e _ => hx _ _) (hW1rel j k)
  · exact IsR.sum _ _ fun k _ => IsR.mul (hx n k) (hW1root j k)

/-- THE LAW: the two outputs agree when the features, the first layer's parameters and the second layer's neighbour
    weights are real. -/
theorem out_eq (hx : ∀ n k, IsR (x n k)) (hW1rel : ∀ j k, IsR (W1rel j k)) (hW1root : ∀ j k, IsR (W1root j k))
    (hb1 : ∀ j, IsR (b1 j)) (hW2rel : ∀ o j, IsR (W2rel o j)) (n : ι) (o : κ2) :
    outK x g SK W1rel W1root b1 W2rel W2root b2 n o = outR x g SR mask W1rel W1root b1 W2rel W2root b2 n o := by
  have hh : ∀ n j, IsR (hidK x g SK W1rel W1root b1 n j) := hidK_isR x g SK W1rel W1root b1 hx hW1rel hW1root hb1
  have he : hidR x g SR mask W1rel W1root b1 = hidK x g SK W1rel W1root b1 :=
    funext fun n => funext fun j => (hid_eq x g SK SR mask W1rel W1root b1 hland n j).symm
  unfold outK outR
  rw [he, add_right_comm]
  congr 2
  rw [Finset.sum_comm]
  refine Finset.sum_congr rfl fun j _ => ?_
  rw [← hland n fun e => hidK x g SK W1rel W1root b1 (g e) j]
  exact (sum_mul_of_isR _ _ _ (fun e _ => hh (g e) j) (hW2rel o j)).symm

end Law

end Cert.Gcn

end
-- ==== Proof.KernelValue.lean ====
/-
  The idealized kernel's result, read at one element.

  The host's scatter-add into zeros of the gathered rows is, at `(n, ·)`, the sum over the edges that land on node `n`
  (`SK`: destination word read signed, self-loops sent out of range) of the row of the normalised, clamped source word
  (`gNode`). A transposed weight matrix is read at the swapped index and a reshaped bias vector at its only row. With
  these the first call's hidden array is `Gcn.hidK` of the argument arrays, its projected array is the hidden row times
  the second layer's neighbour weights, and the second call's result at `(n, o)` is `Gcn.outK`.
-/
import proofs.«109176_j68865505624262_2_alg».proof.Proof.KernelHost
import proofs.«109176_j68865505624262_2_alg».proof.Proof.LibHostIndex
import proofs.«109176_j68865505624262_2_alg».proof.Proof.LibScatterDims
import proofs.«109176_j68865505624262_2_alg».proof.Proof.EdgeOps
import proofs.«109176_j68865505624262_2_alg».proof.Proof.Spec

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Cert.Gcn Cert.Lib.HostIndex

/-! ## The edge vectors at an edge -/

theorem srcV_apply (ei : IVec S2x800000 32) (e : Fin 800000) : srcV ei (ix1 e) = srcW ei e := by
  unfold srcV
  exact row0_apply ei _ _ e

theorem dstV_apply (ei : IVec S2x800000 32) (e : Fin 800000) : dstV ei (ix1 e) = dstW ei e := by
  unfold dstV
  exact row1_apply ei _ _ e

theorem srcNV_apply (ei : IVec S2x800000 32) (e : Fin 800000) : srcNV ei (ix1 e) = normW (srcW ei e) := by
  show Scalar.select (IntOp.cmpi .slt (srcV ei (ix1 e)) 0#32) (IntOp.addi (srcV ei (ix1 e)) 50000#32) (srcV ei (ix1 e)) = _
  rw [srcV_apply]
  rfl

theorem dstMV_apply (ei : IVec S2x800000 32) (e : Fin 800000) : dstMV ei (ix1 e) = dstMW ei e := by
  show Scalar.select (IntOp.cmpi .eq (srcV ei (ix1 e)) (dstV ei (ix1 e))) 50000#32 (dstV ei (ix1 e)) = _
  rw [srcV_apply, dstV_apply]
  rfl

/-! ## The two aggregations at an element -/

/-- A row index that is the normalised source word of edge `e`, clamped into the rows, is the edge's source node. -/
theorem clamp_eq_gNode (col : IVec S800000x1 32) (ei : IVec S2x800000 32) (e : Fin 800000) (hc : col (ix2 e 0) = normW (srcW ei e)) :
    (⟨min (col (ix2 e 0)).toInt.toNat (50000 - 1), by omega⟩ : Fin 50000) = gNode ei e :=
  Fin.ext (by
    show min (col (ix2 e 0)).toInt.toNat (50000 - 1) = min (normW (srcW ei e)).toInt.toNat (50000 - 1)
    rw [hc])

/-- A row gather through a column holding the normalised source words reads the row of the edge's source node
    (96 columns). -/
theorem gath96_apply (x : FVec Ideal S50000x96 .f32) (col : IVec S800000x1 32) (ei : IVec S2x800000 32) (e : Fin 800000) (k : Fin 96)
    (hc : col (ix2 e 0) = normW (srcW ei e)) :
    Host.gather gather_S50000x96_S800000x1_S800000x96_1_0_n_n_0_1_196 x col (ix2 e k) = x (ix2 (gNode ei e) k) :=
  (gather_rows_apply (N := 50000) (R := 800000) (C := 96) (by decide) gather_S50000x96_S800000x1_S800000x96_1_0_n_n_0_1_196_wf
    x col e k).trans (congrArg (fun n : Fin 50000 => x (ix2 n k)) (clamp_eq_gNode col ei e hc))

/-- The same for 64 columns. -/
theorem gath64_apply (p : FVec Ideal S50000x64 .f32) (col : IVec S800000x1 32) (ei : IVec S2x800000 32) (e : Fin 800000) (o : Fin 64)
    (hc : col (ix2 e 0) = normW (srcW ei e)) :
    Host.gather gather_S50000x64_S800000x1_S800000x64_1_0_n_n_0_1_164 p col (ix2 e o) = p (ix2 (gNode ei e) o) :=
  (gather_rows_apply (N := 50000) (R := 800000) (C := 64) (by decide) gather_S50000x64_S800000x1_S800000x64_1_0_n_n_0_1_164_wf
    p col e o).trans (congrArg (fun n : Fin 50000 => p (ix2 n o)) (clamp_eq_gNode col ei e hc))

/-- Scatter-adding, into an array that is zero at `(n, k)`, the rows gathered through a source column, to the rows a
    destination column names: at `(n, k)` the sum, over the edges landing on `n`, of the source nodes' entries
    (96 columns). -/
theorem agg_rows96 (z x : FVec Ideal S50000x96 .f32) (dcol scol : IVec S800000x1 32) (ei : IVec S2x800000 32) (n : Fin 50000) (k : Fin 96)
    (hz : z (ix2 n k) = 0) (hd : ∀ e, dcol (ix2 e 0) = dstMW ei e) (hs : ∀ e, scol (ix2 e 0) = normW (srcW ei e)) :
    Host.scatterAdd scatter_S50000x96_S800000x1_S800000x96_1_0_0_1 z dcol
      (Host.gather gather_S50000x96_S800000x1_S800000x96_1_0_n_n_0_1_196 x scol) (ix2 n k)
      = ∑ e ∈ SK ei n, x (ix2 (gNode ei e) k) := by
  refine (hostScatterAdd_rows_apply scatter_S50000x96_S800000x1_S800000x96_1_0_0_1 rfl rfl rfl rfl z dcol
    (Host.gather gather_S50000x96_S800000x1_S800000x96_1_0_n_n_0_1_196 x scol) n k).trans ?_
  rw [hz, zero_add]
  unfold SK
  refine Finset.sum_congr (Finset.filter_congr fun e _ => by rw [hd e]) fun e _ => ?_
  exact gath96_apply x scol ei e k (hs e)

/-- The same for 64 columns. -/
theorem agg_rows64 (z p : FVec Ideal S50000x64 .f32) (dcol scol : IVec S800000x1 32) (ei : IVec S2x800000 32) (n : Fin 50000) (o : Fin 64)
    (hz : z (ix2 n o) = 0) (hd : ∀ e, dcol (ix2 e 0) = dstMW ei e) (hs : ∀ e, scol (ix2 e 0) = normW (srcW ei e)) :
    Host.scatterAdd scatter_S50000x64_S800000x1_S800000x64_1_0_0_1 z dcol
      (Host.gather gather_S50000x64_S800000x1_S800000x64_1_0_n_n_0_1_164 p scol) (ix2 n o)
      = ∑ e ∈ SK ei n, p (ix2 (gNode ei e) o) := by
  refine (hostScatterAdd_rows_apply scatter_S50000x64_S800000x1_S800000x64_1_0_0_1 rfl rfl rfl rfl z dcol
    (Host.gather gather_S50000x64_S800000x1_S800000x64_1_0_n_n_0_1_164 p scol) n o).trans ?_
  rw [hz, zero_add]
  unfold SK
  refine Finset.sum_congr (Finset.filter_congr fun e _ => by rw [hd e]) fun e _ => ?_
  exact gath64_apply p scol ei e o (hs e)

theorem agg1V_apply (x : FVec Ideal S50000x96 .f32) (ei : IVec S2x800000 32) (n : Fin 50000) (k : Fin 96) :
    agg1V x ei (ix2 n k) = ∑ e ∈ SK ei n, x (ix2 (gNode ei e) k) := by
  unfold agg1V
  refine agg_rows96 _ x _ _ ei n k ?_ ?_ ?_
  · exact Ideal.ofBits_zero_f32
  · intro e
    rw [col_apply, dstMV_apply]
  · intro e
    rw [col_apply, srcNV_apply]

theorem agg2V_apply (p : FVec Ideal S50000x64 .f32) (ei : IVec S2x800000 32) (n : Fin 50000) (o : Fin 64) :
    agg2V p ei (ix2 n o) = ∑ e ∈ SK ei n, p (ix2 (gNode ei e) o) := by
  unfold agg2V
  refine agg_rows64 _ p _ _ ei n o ?_ ?_ ?_
  · exact Ideal.ofBits_zero_f32
  · intro e
    rw [col_apply, dstMV_apply]
  · intro e
    rw [col_apply, srcNV_apply]

/-! ## The parameters at an element -/

theorem tr96_apply (w : S128x96.Idx → EReal) (k : Fin 96) (j : Fin 128) :
    transpose S96x128 [1, 0] w transposes_S128x96_S96x128_1_0 (ix2 k j) = w (ix2 j k) :=
  transpose_apply [1, 0] w transposes_S128x96_S96x128_1_0 (ix2 k j) (ix2 j k) fun b => by
    match b with
    | ⟨0, _⟩ => rfl
    | ⟨1, _⟩ => rfl

theorem tr128_apply (w : S64x128.Idx → EReal) (j : Fin 128) (o : Fin 64) :
    transpose S128x64 [1, 0] w transposes_S64x128_S128x64_1_0 (ix2 j o) = w (ix2 o j) :=
  transpose_apply [1, 0] w transposes_S64x128_S128x64_1_0 (ix2 j o) (ix2 o j) fun b => by
    match b with
    | ⟨0, _⟩ => rfl
    | ⟨1, _⟩ => rfl

theorem row128_apply (v : S128.Idx → EReal) (j : Fin 128) :
    shapeCast S1x128 v shapeCasts_S128_S1x128 (ix2 0 j) = v (ix1 j) :=
  shapeCast_apply v shapeCasts_S128_S1x128 (ix2 0 j) (ix1 j) (by
    rewrite [Shape.rowMajor_val_one, Shape.rowMajor_val_two]; show j.val = 0 * 128 + j.val; omega)

theorem row64_apply (v : S64.Idx → EReal) (o : Fin 64) :
    shapeCast S1x64 v shapeCasts_S64_S1x64 (ix2 0 o) = v (ix1 o) :=
  shapeCast_apply v shapeCasts_S64_S1x64 (ix2 0 o) (ix1 o) (by
    rewrite [Shape.rowMajor_val_one, Shape.rowMajor_val_two]; show o.val = 0 * 64 + o.val; omega)

/-- A sum against a column of the transposed 128 x 96 matrix is the sum against the matrix's row. -/
theorem sum_tr96 (a : Fin 96 → EReal) (w : S128x96.Idx → EReal) (j : Fin 128) :
    ∑ k : Fin 96, a k * transpose S96x128 [1, 0] w transposes_S128x96_S96x128_1_0 (ix2 k j) = ∑ k : Fin 96, a k * w (ix2 j k) :=
  Finset.sum_congr rfl fun k _ => by rw [tr96_apply]

/-- A sum against a column of the transposed 64 x 128 matrix is the sum against the matrix's row. -/
theorem sum_tr128 (a : Fin 128 → EReal) (w : S64x128.Idx → EReal) (o : Fin 64) :
    ∑ j : Fin 128, a j * transpose S128x64 [1, 0] w transposes_S64x128_S128x64_1_0 (ix2 j o) = ∑ j : Fin 128, a j * w (ix2 o j) :=
  Finset.sum_congr rfl fun j _ => by rw [tr128_apply]

/-! ## The layers -/

section Layers
variable (x0 : S50000x96.Idx → EReal) (ei : IVec S2x800000 32) (x2 x4 : S128x96.Idx → EReal) (x3 : S128.Idx → EReal)
  (x5 x7 : S64x128.Idx → EReal) (x6 : S64.Idx → EReal)

/-- The first call's hidden features are the self-loop-free formula. -/
theorem hidNode_eq (n : Fin 50000) (j : Fin 128) :
    hidNode (agg1V x0 ei) x0 (transpose S96x128 [1, 0] x2 transposes_S128x96_S96x128_1_0)
      (transpose S96x128 [1, 0] x4 transposes_S128x96_S96x128_1_0) (shapeCast S1x128 x3 shapeCasts_S128_S1x128) n j
      = hidK (fun n k => x0 (ix2 n k)) (gNode ei) (SK ei) (fun j k => x2 (ix2 j k)) (fun j k => x4 (ix2 j k))
          (fun j => x3 (ix1 j)) n j := by
  unfold hidNode hidK
  rw [sum_tr96 (fun k => agg1V x0 ei (ix2 n k)) x2 j, sum_tr96 (fun k => x0 (ix2 n k)) x4 j, row128_apply]
  refine congrArg (fun s : EReal => max ((s + ∑ k : Fin 96, x0 (ix2 n k) * x4 (ix2 j k)) + x3 (ix1 j)) 0)
    (Finset.sum_congr rfl fun k _ => ?_)
  rw [agg1V_apply]

/-- The first call's projected features. -/
theorem projNode_eq (n : Fin 50000) (o : Fin 64) :
    projNode (agg1V x0 ei) x0 (transpose S96x128 [1, 0] x2 transposes_S128x96_S96x128_1_0)
      (transpose S96x128 [1, 0] x4 transposes_S128x96_S96x128_1_0) (shapeCast S1x128 x3 shapeCasts_S128_S1x128)
      (transpose S128x64 [1, 0] x5 transposes_S64x128_S128x64_1_0) n o
      = ∑ j : Fin 128, hidK (fun n k => x0 (ix2 n k)) (gNode ei) (SK ei) (fun j k => x2 (ix2 j k)) (fun j k => x4 (ix2 j k))
          (fun j => x3 (ix1 j)) n j * x5 (ix2 o j) := by
  unfold projNode
  rw [sum_tr128 _ x5 o]
  refine Finset.sum_congr rfl fun j _ => ?_
  rw [hidNode_eq]

/-- THE KERNEL'S RESULT at `(n, o)` is the self-loop-free formula of the argument arrays. -/
theorem resNode_eq (n : Fin 50000) (o : Fin 64) :
    resNode
      (agg2V (projArr (agg1V x0 ei) x0 (transpose S96x128 [1, 0] x2 transposes_S128x96_S96x128_1_0)
        (transpose S96x128 [1, 0] x4 transposes_S128x96_S96x128_1_0) (shapeCast S1x128 x3 shapeCasts_S128_S1x128)
        (transpose S128x64 [1, 0] x5 transposes_S64x128_S128x64_1_0)) ei)
      (hidArr (agg1V x0 ei) x0 (transpose S96x128 [1, 0] x2 transposes_S128x96_S96x128_1_0)
        (transpose S96x128 [1, 0] x4 transposes_S128x96_S96x128_1_0) (shapeCast S1x128 x3 shapeCasts_S128_S1x128))
      (transpose S128x64 [1, 0] x7 transposes_S64x128_S128x64_1_0) (shapeCast S1x64 x6 shapeCasts_S64_S1x64) n o
      = outK (fun n k => x0 (ix2 n k)) (gNode ei) (SK ei) (fun j k => x2 (ix2 j k)) (fun j k => x4 (ix2 j k))
          (fun j => x3 (ix1 j)) (fun o j => x5 (ix2 o j)) (fun o j => x7 (ix2 o j)) (fun o => x6 (ix1 o)) n o := by
  unfold resNode outK
  rw [agg2V_apply, row64_apply, sum_tr128 _ x7 o]
  refine congrArg (fun s : EReal => s + x6 (ix1 o))
    (congrArg₂ (fun s t : EReal => s + t) (Finset.sum_congr rfl fun e _ => ?_) (Finset.sum_congr rfl fun j _ => ?_))
  · show projNode _ _ _ _ _ _ (gNode ei e) o = _
    rw [projNode_eq]
  · show hidNode _ _ _ _ _ n j * _ = _
    rw [hidNode_eq]

end Layers

/-! ## The result buffer -/

variable (m : (ℓ : Loc nD τ sig) → Buf (Elt Ideal) ℓ) (ρ : Dev nD → PrngReg)

/-- The function of the argument arrays the kernel's result array holds. -/
def result (c : Dev nD) : S50000x64.Idx → EReal := fun i =>
  outK (fun n k => (m ((c : Thread nD τ).loc main_arg0) : S50000x96.Idx → EReal) (ix2 n k))
    (gNode (m ((c : Thread nD τ).loc main_arg1))) (SK (m ((c : Thread nD τ).loc main_arg1)))
    (fun j k => (m ((c : Thread nD τ).loc main_arg2) : S128x96.Idx → EReal) (ix2 j k))
    (fun j k => (m ((c : Thread nD τ).loc main_arg4) : S128x96.Idx → EReal) (ix2 j k))
    (fun j => (m ((c : Thread nD τ).loc main_arg3) : S128.Idx → EReal) (ix1 j))
    (fun o j => (m ((c : Thread nD τ).loc main_arg5) : S64x128.Idx → EReal) (ix2 o j))
    (fun o j => (m ((c : Thread nD τ).loc main_arg7) : S64x128.Idx → EReal) (ix2 o j))
    (fun o => (m ((c : Thread nD τ).loc main_arg6) : S64.Idx → EReal) (ix1 o)) (i 0) (i 1)

/-- The result buffer after the run holds `result`. -/
theorem W6_result (c : Dev nD) : (W6 m ρ c (Proc.devRef .tc main_v33) : S50000x64.Idx → EReal) = result m c := by
  refine ((W6_arr m ρ c 4).trans (final1_4 (V5 m ρ) c)).trans ?_
  rw [V5_v30, V5_v20_0, V5_v31, V5_v32, W4_v20_0, W4_v20_1, V3_v15, V3_arg0, V3_v16, V3_v17, V3_v18, V3_v19]
  funext i
  obtain ⟨n, o, rfl⟩ : ∃ (n : Fin 50000) (o : Fin 64), i = ix2 n o := ⟨i 0, i 1, eq_ix2 i⟩
  show resNode _ _ _ _ n o = _
  rw [resNode_eq]
  rfl

end Cert.KernelIdeal.Hand

end
-- ==== Proof.RefEdge.lean ====
/-
  The reference program's edge words, read at an edge.

  The two slices of the edge list are the source and destination words; the gather index column holds the source word
  with a negative value counted from the end; the scatter index column holds the destination word; the mask, as a float,
  is 1 or 0 as the two words differ or not, whatever column it is broadcast to.
-/
import proofs.«109176_j68865505624262_2_alg».proof.Proof.Gen.ReferenceIdeal.Read
import proofs.«109176_j68865505624262_2_alg».proof.Proof.LibHostIndex
import proofs.«109176_j68865505624262_2_alg».proof.Proof.EdgeOps
import proofs.«109176_j68865505624262_2_alg».proof.Proof.Spec

set_option maxRecDepth 16384

noncomputable section

open scoped BigOperators

namespace Cert.ReferenceIdeal.RefValue

open Cert.ReferenceIdeal Cert.ReferenceIdeal.Gen Cert.ReferenceIdeal.Read
open Idealize.ShloMosaic Idealize.ShloMosaic.ValueIdx
open Cert.Gcn Cert.Lib.HostIndex

variable (x0 : (⟨S50000x96, .f32⟩ : BufTy).Contents (Elt Ideal)) (x1 : (⟨S2x800000, .i32⟩ : BufTy).Contents (Elt Ideal))
  (x2 : (⟨S128x96, .f32⟩ : BufTy).Contents (Elt Ideal)) (x3 : (⟨S128, .f32⟩ : BufTy).Contents (Elt Ideal))
  (x4 : (⟨S128x96, .f32⟩ : BufTy).Contents (Elt Ideal)) (x5 : (⟨S64x128, .f32⟩ : BufTy).Contents (Elt Ideal))
  (x6 : (⟨S64, .f32⟩ : BufTy).Contents (Elt Ideal)) (x7 : (⟨S64x128, .f32⟩ : BufTy).Contents (Elt Ideal))

/-! ## The edge words -/

theorem v1_apply (e : Fin 800000) : val_main_v1 (F := Ideal) x1 (ix1 e) = srcW x1 e := by
  unfold val_main_v1 val_main_v0
  exact row0_apply x1 _ _ e

theorem v3_apply (e : Fin 800000) : val_main_v3 (F := Ideal) x1 (ix1 e) = dstW x1 e := by
  unfold val_main_v3 val_main_v2
  exact row1_apply x1 _ _ e

theorem v12_apply (e : Fin 800000) : val_main_v12 (F := Ideal) x1 (ix2 e 0) = normW (srcW x1 e) := by
  unfold val_main_v12
  rw [col_apply]
  show Scalar.select (IntOp.cmpi .slt (val_main_v1 (F := Ideal) x1 (ix1 e)) 0#32) (IntOp.addi (val_main_v1 (F := Ideal) x1 (ix1 e)) 50000#32)
    (val_main_v1 (F := Ideal) x1 (ix1 e)) = _
  rw [v1_apply]
  rfl

theorem v33_apply (e : Fin 800000) : val_main_v33 (F := Ideal) x1 (ix2 e 0) = normW (srcW x1 e) := by
  unfold val_main_v33
  rw [col_apply]
  show Scalar.select (IntOp.cmpi .slt (val_main_v1 (F := Ideal) x1 (ix1 e)) 0#32) (IntOp.addi (val_main_v1 (F := Ideal) x1 (ix1 e)) 50000#32)
    (val_main_v1 (F := Ideal) x1 (ix1 e)) = _
  rw [v1_apply]
  rfl

theorem v17_apply (e : Fin 800000) : val_main_v17 (F := Ideal) x1 (ix2 e 0) = dstW x1 e := by
  unfold val_main_v17
  rw [col_apply, v3_apply]

theorem v38_apply (e : Fin 800000) : val_main_v38 (F := Ideal) x1 (ix2 e 0) = dstW x1 e := by
  unfold val_main_v38
  rw [col_apply, v3_apply]

theorem v6_apply (e : Fin 800000) : val_main_v6 (F := Ideal) x1 (ix2 e 0) = maskE x1 e := by
  unfold val_main_v6
  rw [col_apply]
  show (((IntOp.cmpi .ne (val_main_v1 (F := Ideal) x1 (ix1 e)) (val_main_v3 (F := Ideal) x1 (ix1 e))).toNat : ℝ) : EReal) = _
  rw [v1_apply, v3_apply]
  rfl

theorem v14_apply (e : Fin 800000) (k : Fin 96) : val_main_v14 (F := Ideal) x1 (ix2 e k) = maskE x1 e := by
  rw [val_main_v14_apply]
  have hi : idx_main_v14 (ix2 e k) = ix2 e 0 := funext fun a => Fin.ext (by
    match a with
    | ⟨0, _⟩ => rfl
    | ⟨1, _⟩ => rfl)
  rw [hi, v6_apply]

theorem v35_apply (e : Fin 800000) (j : Fin 128) : val_main_v35 (F := Ideal) x1 (ix2 e j) = maskE x1 e := by
  rw [val_main_v35_apply]
  have hi : idx_main_v35 (ix2 e j) = ix2 e 0 := funext fun a => Fin.ext (by
    match a with
    | ⟨0, _⟩ => rfl
    | ⟨1, _⟩ => rfl)
  rw [hi, v6_apply]

end Cert.ReferenceIdeal.RefValue

end
-- ==== Proof.RefLayer1.lean ====
/-
  The reference program's first layer, read at one element.

  The row gather reads the feature row of the normalised, clamped source word; the scatter-add into zeros sums the masked
  rows over the edges whose destination word, read signed, is the node; a `dot_general` is the plain sum over the
  contracted coordinate and a transposed weight matrix is read at the swapped index. So the hidden features are the
  masked-sum formula `Gcn.hidR` of the argument arrays.
-/
import proofs.«109176_j68865505624262_2_alg».proof.Proof.Gen.ReferenceIdeal.Read
import proofs.«109176_j68865505624262_2_alg».proof.Proof.LibHostIndex
import proofs.«109176_j68865505624262_2_alg».proof.Proof.LibScatterDims
import proofs.«109176_j68865505624262_2_alg».proof.Proof.EdgeOps
import proofs.«109176_j68865505624262_2_alg».proof.Proof.Spec
import proofs.«109176_j68865505624262_2_alg».proof.Proof.RefEdge

set_option maxRecDepth 16384

noncomputable section

open scoped BigOperators

namespace Cert.ReferenceIdeal.RefValue

open Cert.ReferenceIdeal Cert.ReferenceIdeal.Gen Cert.ReferenceIdeal.Read
open Idealize.ShloMosaic Idealize.ShloMosaic.ValueIdx
open Cert.Gcn Cert.Lib.HostIndex

variable (x0 : (⟨S50000x96, .f32⟩ : BufTy).Contents (Elt Ideal)) (x1 : (⟨S2x800000, .i32⟩ : BufTy).Contents (Elt Ideal))
  (x2 : (⟨S128x96, .f32⟩ : BufTy).Contents (Elt Ideal)) (x3 : (⟨S128, .f32⟩ : BufTy).Contents (Elt Ideal))
  (x4 : (⟨S128x96, .f32⟩ : BufTy).Contents (Elt Ideal)) (x5 : (⟨S64x128, .f32⟩ : BufTy).Contents (Elt Ideal))
  (x6 : (⟨S64, .f32⟩ : BufTy).Contents (Elt Ideal)) (x7 : (⟨S64x128, .f32⟩ : BufTy).Contents (Elt Ideal))

/-! ## The first layer -/

theorem v13_apply (e : Fin 800000) (k : Fin 96) : val_main_v13 (F := Ideal) x0 x1 (ix2 e k) = x0 (ix2 (gNode x1 e) k) := by
  unfold val_main_v13
  refine (gather_rows_apply (N := 50000) (R := 800000) (C := 96) (by decide) gather_S50000x96_S800000x1_S800000x96_1_0_n_n_0_1_196_wf
    x0 (val_main_v12 (F := Ideal) x1) e k).trans ?_
  exact congrArg (fun n : Fin 50000 => x0 (ix2 n k)) (Fin.ext (by
    show min (val_main_v12 (F := Ideal) x1 (ix2 e 0)).toInt.toNat (50000 - 1) = min (normW (srcW x1 e)).toInt.toNat (50000 - 1)
    rw [v12_apply]))

theorem v18_apply (n : Fin 50000) (k : Fin 96) :
    val_main_v18 (F := Ideal) x0 x1 (ix2 n k) = ∑ e ∈ SR x1 n, x0 (ix2 (gNode x1 e) k) * maskE x1 e := by
  unfold val_main_v18
  refine (hostScatterAdd_rows_apply scatter_S50000x96_S800000x1_S800000x96_1_0_0_1 rfl rfl rfl rfl
    (val_main_v16 (F := Ideal)) (val_main_v17 (F := Ideal) x1) (val_main_v15 (F := Ideal) x0 x1) n k).trans ?_
  rw [show val_main_v16 (F := Ideal) (ix2 n k) = 0 from Ideal.ofBits_zero_f32, zero_add]
  unfold SR
  refine Finset.sum_congr (Finset.filter_congr fun e _ => by rw [v17_apply]) fun e _ => ?_
  show val_main_v13 (F := Ideal) x0 x1 (ix2 e k) * val_main_v14 (F := Ideal) x1 (ix2 e k) = _
  rw [v13_apply, v14_apply]

theorem v19_apply (k : Fin 96) (j : Fin 128) : val_main_v19 (F := Ideal) x2 (ix2 k j) = x2 (ix2 j k) := by
  rw [val_main_v19_apply]
  exact congrArg x2 (funext fun a => Fin.ext (by
    match a with
    | ⟨0, _⟩ => rfl
    | ⟨1, _⟩ => rfl))

theorem v24_apply (k : Fin 96) (j : Fin 128) : val_main_v24 (F := Ideal) x4 (ix2 k j) = x4 (ix2 j k) := by
  rw [val_main_v24_apply]
  exact congrArg x4 (funext fun a => Fin.ext (by
    match a with
    | ⟨0, _⟩ => rfl
    | ⟨1, _⟩ => rfl))

theorem lidx20 (n : Fin 50000) (j : Fin 128) (k : Fin 96) : lidx_main_v20 (ix2 n j) k = ix2 n k :=
  funext fun a => Fin.ext (by
    match a with
    | ⟨0, _⟩ => rfl
    | ⟨1, _⟩ => rfl)
theorem ridx20 (n : Fin 50000) (j : Fin 128) (k : Fin 96) : ridx_main_v20 (ix2 n j) k = ix2 k j :=
  funext fun a => Fin.ext (by
    match a with
    | ⟨0, _⟩ => rfl
    | ⟨1, _⟩ => rfl)
theorem lidx25 (n : Fin 50000) (j : Fin 128) (k : Fin 96) : lidx_main_v25 (ix2 n j) k = ix2 n k :=
  funext fun a => Fin.ext (by
    match a with
    | ⟨0, _⟩ => rfl
    | ⟨1, _⟩ => rfl)
theorem ridx25 (n : Fin 50000) (j : Fin 128) (k : Fin 96) : ridx_main_v25 (ix2 n j) k = ix2 k j :=
  funext fun a => Fin.ext (by
    match a with
    | ⟨0, _⟩ => rfl
    | ⟨1, _⟩ => rfl)

theorem v22_apply (n : Fin 50000) (j : Fin 128) : val_main_v22 (F := Ideal) x3 (ix2 n j) = x3 (ix1 j) := by
  rw [val_main_v22_apply, val_main_v21_apply]
  exact congrArg x3 (funext fun a => Fin.ext (by
    match a with
    | ⟨0, _⟩ => rfl))

/-- The reference's hidden features are the masked-sum formula. -/
theorem v27_apply (n : Fin 50000) (j : Fin 128) :
    val_main_v27 (F := Ideal) x0 x1 x2 x3 x4 (ix2 n j)
      = hidR (fun n k => x0 (ix2 n k)) (gNode x1) (SR x1) (maskE x1) (fun j k => x2 (ix2 j k)) (fun j k => x4 (ix2 j k))
          (fun j => x3 (ix1 j)) n j := by
  rw [val_main_v27_apply, val_main_v26_apply, val_main_v23_apply, val_main_v20_apply, val_main_v25_apply, v22_apply]
  simp only [lidx20, ridx20, lidx25, ridx25, v18_apply, v19_apply, v24_apply]
  rw [show val_main_call0_v0 (F := Ideal) (ix2 n j) = 0 from Ideal.ofBits_zero_f32]
  rfl

end Cert.ReferenceIdeal.RefValue

end
-- ==== Proof.RefLayer2.lean ====
/-
  The reference program's second layer, read at one element: the same gather, mask and scatter-add over the hidden
  features, then the two products and the bias. Element `(n, o)` of the result is the masked-sum formula `Gcn.outR` of the
  argument arrays.
-/
import proofs.«109176_j68865505624262_2_alg».proof.Proof.Gen.ReferenceIdeal.Read
import proofs.«109176_j68865505624262_2_alg».proof.Proof.LibHostIndex
import proofs.«109176_j68865505624262_2_alg».proof.Proof.EdgeOps
import proofs.«109176_j68865505624262_2_alg».proof.Proof.Spec
import proofs.«109176_j68865505624262_2_alg».proof.Proof.RefLayer1

set_option maxRecDepth 16384

noncomputable section

open scoped BigOperators

namespace Cert.ReferenceIdeal.RefValue

open Cert.ReferenceIdeal Cert.ReferenceIdeal.Gen Cert.ReferenceIdeal.Read
open Idealize.ShloMosaic Idealize.ShloMosaic.ValueIdx
open Cert.Gcn Cert.Lib.HostIndex

variable (x0 : (⟨S50000x96, .f32⟩ : BufTy).Contents (Elt Ideal)) (x1 : (⟨S2x800000, .i32⟩ : BufTy).Contents (Elt Ideal))
  (x2 : (⟨S128x96, .f32⟩ : BufTy).Contents (Elt Ideal)) (x3 : (⟨S128, .f32⟩ : BufTy).Contents (Elt Ideal))
  (x4 : (⟨S128x96, .f32⟩ : BufTy).Contents (Elt Ideal)) (x5 : (⟨S64x128, .f32⟩ : BufTy).Contents (Elt Ideal))
  (x6 : (⟨S64, .f32⟩ : BufTy).Contents (Elt Ideal)) (x7 : (⟨S64x128, .f32⟩ : BufTy).Contents (Elt Ideal))

/-! ## The second layer -/

/-- A row index that is the normalised source word of edge `e`, clamped into the rows, is the edge's source node. -/
theorem clamp_eq_gNode (col : IVec S800000x1 32) (e : Fin 800000) (hc : col (ix2 e 0) = normW (srcW x1 e)) :
    (⟨min (col (ix2 e 0)).toInt.toNat (50000 - 1), by omega⟩ : Fin 50000) = gNode x1 e :=
  Fin.ext (by
    show min (col (ix2 e 0)).toInt.toNat (50000 - 1) = min (normW (srcW x1 e)).toInt.toNat (50000 - 1)
    rw [hc])

/-- A row gather of any 128-column array through a column holding the normalised source words reads the row of the
    edge's source node. -/
theorem gather128_apply (y : S50000x128.Idx → EReal) (col : IVec S800000x1 32) (e : Fin 800000) (j : Fin 128)
    (hc : col (ix2 e 0) = normW (srcW x1 e)) :
    Host.gather gather_S50000x128_S800000x1_S800000x128_1_0_n_n_0_1_1128 y col (ix2 e j) = y (ix2 (gNode x1 e) j) :=
  (gather_rows_apply (N := 50000) (R := 800000) (C := 128) (by decide) gather_S50000x128_S800000x1_S800000x128_1_0_n_n_0_1_1128_wf
    y col e j).trans (congrArg (fun n : Fin 50000 => y (ix2 n j)) (clamp_eq_gNode x1 col e hc))

/-- Scatter-adding any 128-column rows, into an array that is zero at `(n, j)`, to the rows a column of destination
    words names: at `(n, j)` the sum of the rows' entries over the edges ending at `n`. -/
theorem scatter128_apply (z : S50000x128.Idx → EReal) (dcol : IVec S800000x1 32) (u : S800000x128.Idx → EReal) (n : Fin 50000) (j : Fin 128)
    (hz : z (ix2 n j) = 0) (hd : ∀ e, dcol (ix2 e 0) = dstW x1 e) :
    Host.scatterAdd (F := Ideal) (φ := .f32) scatter_S50000x128_S800000x1_S800000x128_1_0_0_1 z dcol u (ix2 n j)
      = ∑ e ∈ SR x1 n, u (ix2 e j) := by
  refine (hostScatterAdd_rows_apply scatter_S50000x128_S800000x1_S800000x128_1_0_0_1 rfl rfl rfl rfl z dcol u n j).trans ?_
  rw [hz, zero_add]
  unfold SR
  exact Finset.sum_congr (Finset.filter_congr fun e _ => by rw [hd e]) fun e _ => rfl

theorem v34_apply (e : Fin 800000) (j : Fin 128) :
    val_main_v34 (F := Ideal) x0 x1 x2 x3 x4 (ix2 e j) = val_main_v27 (F := Ideal) x0 x1 x2 x3 x4 (ix2 (gNode x1 e) j) := by
  unfold val_main_v34
  exact gather128_apply x1 _ _ e j (v33_apply x1 e)

theorem v39_apply (n : Fin 50000) (j : Fin 128) :
    val_main_v39 (F := Ideal) x0 x1 x2 x3 x4 (ix2 n j)
      = ∑ e ∈ SR x1 n, val_main_v27 (F := Ideal) x0 x1 x2 x3 x4 (ix2 (gNode x1 e) j) * maskE x1 e := by
  unfold val_main_v39
  refine (scatter128_apply x1 _ _ _ n j ?_ ?_).trans ?_
  · exact Ideal.ofBits_zero_f32
  · intro e
    exact v38_apply x1 e
  · refine Finset.sum_congr rfl fun e _ => ?_
    rw [val_main_v36_apply, v34_apply, v35_apply]
    exact Ideal.mulf_def _ _

theorem v40_apply (j : Fin 128) (o : Fin 64) : val_main_v40 (F := Ideal) x5 (ix2 j o) = x5 (ix2 o j) := by
  rw [val_main_v40_apply]
  exact congrArg x5 (funext fun a => Fin.ext (by
    match a with
    | ⟨0, _⟩ => rfl
    | ⟨1, _⟩ => rfl))

theorem v45_apply (j : Fin 128) (o : Fin 64) : val_main_v45 (F := Ideal) x7 (ix2 j o) = x7 (ix2 o j) := by
  rw [val_main_v45_apply]
  exact congrArg x7 (funext fun a => Fin.ext (by
    match a with
    | ⟨0, _⟩ => rfl
    | ⟨1, _⟩ => rfl))

theorem lidx41 (n : Fin 50000) (o : Fin 64) (j : Fin 128) : lidx_main_v41 (ix2 n o) j = ix2 n j :=
  funext fun a => Fin.ext (by
    match a with
    | ⟨0, _⟩ => rfl
    | ⟨1, _⟩ => rfl)
theorem ridx41 (n : Fin 50000) (o : Fin 64) (j : Fin 128) : ridx_main_v41 (ix2 n o) j = ix2 j o :=
  funext fun a => Fin.ext (by
    match a with
    | ⟨0, _⟩ => rfl
    | ⟨1, _⟩ => rfl)
theorem lidx46 (n : Fin 50000) (o : Fin 64) (j : Fin 128) : lidx_main_v46 (ix2 n o) j = ix2 n j :=
  funext fun a => Fin.ext (by
    match a with
    | ⟨0, _⟩ => rfl
    | ⟨1, _⟩ => rfl)
theorem ridx46 (n : Fin 50000) (o : Fin 64) (j : Fin 128) : ridx_main_v46 (ix2 n o) j = ix2 j o :=
  funext fun a => Fin.ext (by
    match a with
    | ⟨0, _⟩ => rfl
    | ⟨1, _⟩ => rfl)

theorem v43_apply (n : Fin 50000) (o : Fin 64) : val_main_v43 (F := Ideal) x6 (ix2 n o) = x6 (ix1 o) := by
  rw [val_main_v43_apply, val_main_v42_apply]
  exact congrArg x6 (funext fun a => Fin.ext (by
    match a with
    | ⟨0, _⟩ => rfl))

/-- THE REFERENCE'S RESULT at `(n, o)` is the masked-sum formula of the argument arrays. -/
theorem v47_apply (n : Fin 50000) (o : Fin 64) :
    val_main_v47 (F := Ideal) x0 x1 x2 x3 x4 x5 x6 x7 (ix2 n o)
      = outR (fun n k => x0 (ix2 n k)) (gNode x1) (SR x1) (maskE x1) (fun j k => x2 (ix2 j k)) (fun j k => x4 (ix2 j k))
          (fun j => x3 (ix1 j)) (fun o j => x5 (ix2 o j)) (fun o j => x7 (ix2 o j)) (fun o => x6 (ix1 o)) n o := by
  rw [val_main_v47_apply, val_main_v44_apply, val_main_v41_apply, val_main_v46_apply, v43_apply]
  simp only [lidx41, ridx41, lidx46, ridx46, v39_apply, v40_apply, v45_apply, v27_apply]
  rfl

end Cert.ReferenceIdeal.RefValue

end
-- ==== Proof.Finite.lean ====
/-
  From the precondition to "every entry is a real number".

  The precondition is the conjunction, over the seven float arguments, of `all (|a| < +inf)`. Each conjunct is a reduction
  by `and` that came out 1, so every compared element is 1; an element's comparison being 1 says `max a (-a) < ⊤`, which
  fails at both infinities: the entry is a real. The five arguments the law needs are read here: the features, the two
  first-layer weight matrices, the first bias and the second layer's neighbour weights.
-/
import proofs.«109176_j68865505624262_2_alg».proof.Pre_finite_inputs
import proofs.«109176_j68865505624262_2_alg».proof.Proof.Spec
import Idealize.ShloMosaic.Lib.ReduceAll
import Idealize.ShloMosaic.Lib.ValueIdx
import Idealize.ShloMosaic.PureOps.Ideal.Laws

noncomputable section

namespace Cert.Pre_finite_inputs.Hand

open Cert.Pre_finite_inputs Idealize.ShloMosaic Cert.Gcn

instance : Subsingleton S_.Idx := ⟨fun a b => funext fun d => d.elim0⟩

theorem inf_f32 : Ideal.ofBits .f32 0x7F800000#32 = ⊤ := by simp [Ideal.ofBits, Ideal.ieee]

/-- An extended real whose absolute value compares below the infinity word is a real. -/
theorem isR_of_lt_inf (a : EReal) (h : Ideal.cmp .olt (max a (-a)) (Ideal.ofBits .f32 0x7F800000#32) = 1#1) : IsR a := by
  rw [inf_f32] at h
  have hlt : max a (-a) < ⊤ := by
    by_contra hn
    have : Ideal.cmp .olt (max a (-a)) ⊤ = 0#1 := by
      unfold Ideal.cmp
      simp [hn]
    rw [this] at h
    exact absurd h (by decide)
  induction a using EReal.rec with
  | bot => simp at hlt
  | coe r => exact ⟨r, rfl⟩
  | top => simp at hlt

variable [Facts]

/-- Under the precondition the five arrays the law needs hold real numbers. -/
theorem real_of_pre (a0 : FVec Ideal S50000x96 .f32) (a1 : IVec S2x800000 32) (a2 : FVec Ideal S128x96 .f32) (a3 : FVec Ideal S128 .f32)
    (a4 : FVec Ideal S128x96 .f32) (a5 : FVec Ideal S64x128 .f32) (a6 : FVec Ideal S64 .f32) (a7 : FVec Ideal S64x128 .f32)
    (h : fn (F := Ideal) a0 a1 a2 a3 a4 a5 a6 a7 = fun _ => 1#1) :
    (∀ i, IsR (a0 i)) ∧ (∀ i, IsR (a2 i)) ∧ (∀ i, IsR (a3 i)) ∧ (∀ i, IsR (a4 i)) ∧ (∀ i, IsR (a5 i)) := by
  have h0 := congrFun h ValueIdx.ix0
  dsimp only [fn, fn_part1] at h0
  obtain ⟨h28, -⟩ := IntOp.andi_eq_one.1 h0
  obtain ⟨h23, -⟩ := IntOp.andi_eq_one.1 h28
  obtain ⟨h18, h22⟩ := IntOp.andi_eq_one.1 h23
  obtain ⟨h13, h17⟩ := IntOp.andi_eq_one.1 h18
  obtain ⟨h8, h12⟩ := IntOp.andi_eq_one.1 h13
  obtain ⟨h3, h7⟩ := IntOp.andi_eq_one.1 h8
  exact ⟨fun i => isR_of_lt_inf _ (Host.reduce_andi_all _ _ _ _ _ h3 i),
    fun i => isR_of_lt_inf _ (Host.reduce_andi_all _ _ _ _ _ h7 i),
    fun i => isR_of_lt_inf _ (Host.reduce_andi_all _ _ _ _ _ h12 i),
    fun i => isR_of_lt_inf _ (Host.reduce_andi_all _ _ _ _ _ h17 i),
    fun i => isR_of_lt_inf _ (Host.reduce_andi_all _ _ _ _ _ h22 i)⟩

end Cert.Pre_finite_inputs.Hand

end
-- ==== Proof.lean ====
/-
  The two-layer graph convolution kernel against its reference: the five claims.

  Both programs compute, for node `n` and output feature `o`,
    h (n, j) = max (Σₖ (Σ_{e → n} x (src e, k)) · W1rel (j, k) + Σₖ x (n, k) · W1root (j, k) + b1 (j), 0),
    out (n, o) = Σⱼ (Σ_{e → n} h (src e, j)) · W2rel (o, j) + Σⱼ h (n, j) · W2root (o, j) + b2 (o),
  the inner sums over the edges ending at `n` that are not self-loops. The kernel removes a self-loop by sending it to
  an out-of-range destination that the scatter drops, the reference by multiplying its row by a zero mask; and the
  kernel multiplies the hidden rows by `W2rel` BEFORE summing over the edges while the reference sums first. The first
  difference is term by term; the second exchanges a finite sum with a product, which on the extended reals holds
  because the hidden features and the weights are real — which is what the precondition (every float input finite)
  gives.

  The kernel's run ends with its result array at that function of the arguments (its two pallas_calls' blocks tile their
  outputs, and each block's element depends only on its own row of the row-blocked inputs); the reference's generated run
  ends with its composed term, which read element by element is the masked form of the same function.
-/
import proofs.«109176_j68865505624262_2_alg».proof.Defs
import proofs.«109176_j68865505624262_2_alg».proof.Proof.Gen.Kernel
import proofs.«109176_j68865505624262_2_alg».proof.Proof.Gen.Kernel.Skeleton
import proofs.«109176_j68865505624262_2_alg».proof.Proof.Gen.Kernel.Launch
import proofs.«109176_j68865505624262_2_alg».proof.Proof.Gen.Kernel.Points
import proofs.«109176_j68865505624262_2_alg».proof.Proof.Gen.Kernel.Frame
import proofs.«109176_j68865505624262_2_alg».proof.Proof.Gen.KernelIdeal
import proofs.«109176_j68865505624262_2_alg».proof.Proof.Gen.KernelIdeal.Skeleton
import proofs.«109176_j68865505624262_2_alg».proof.Proof.Gen.KernelIdeal.Launch
import proofs.«109176_j68865505624262_2_alg».proof.Proof.Gen.KernelIdeal.Points
import proofs.«109176_j68865505624262_2_alg».proof.Proof.Gen.KernelIdeal.Frame
import proofs.«109176_j68865505624262_2_alg».proof.Proof.Gen.ReferenceIdeal
import proofs.«109176_j68865505624262_2_alg».proof.Proof.Gen.Pre_finite_inputs
import proofs.«109176_j68865505624262_2_alg».proof.Proof.Gen.ReferenceIdeal.Run
import proofs.«109176_j68865505624262_2_alg».proof.Proof.Gen.ReferenceIdeal.Read
import proofs.«109176_j68865505624262_2_alg».proof.Proof.KernelRun
import proofs.«109176_j68865505624262_2_alg».proof.Proof.KernelValue
import proofs.«109176_j68865505624262_2_alg».proof.Proof.RefLayer2
import proofs.«109176_j68865505624262_2_alg».proof.Proof.Finite
import Idealize.ShloMosaic.Adequacy
import Idealize.ShloMosaic.Init

set_option maxRecDepth 16384

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The reference's result term, at arguments that are the kernel's and real, is the kernel's result function. -/
theorem ref_eq_result (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.ReferenceIdeal.Read.val_main_v47 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      = Cert.KernelIdeal.Hand.result m c := by
  obtain ⟨hx, hw1, hb1, hw1r, hw2⟩ := Cert.Pre_finite_inputs.Hand.real_of_pre _ _ _ _ _ _ _ _ (hpre c)
  funext i
  obtain ⟨n, o, rfl⟩ : ∃ (n : Fin 50000) (o : Fin 64), i = ix2 n o := ⟨i 0, i 1, eq_ix2 i⟩
  rw [Cert.ReferenceIdeal.RefValue.v47_apply]
  exact (Cert.Gcn.out_eq _ _ _ _ _ _ _ _ _ _ _ (Cert.Gcn.sum_SK_eq _) (fun n k => hx (ix2 n k)) (fun j k => hw1 (ix2 j k))
    (fun j k => hw1r (ix2 j k)) (fun j => hb1 (ix1 j)) (fun o j => hw2 (ix2 o j)) n o).symm

/-- Both idealized programs end with the same result array. -/
theorem algebraic : Cert.algebraic_KernelIdeal_ReferenceIdeal := by
  intro m ρ m' ρ' hpre hagree
  refine ⟨fun c => Cert.KernelIdeal.Hand.result m c, ?_, ?_⟩
  · exact (θ_run Cert.KernelIdeal.defs _ _).mono
      (fun r h c => ⟨(h c).1.trans (Cert.KernelIdeal.Hand.W6_result m ρ c), (h c).2⟩)
      (Cert.KernelIdeal.Hand.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v47_eq]
    obtain ⟨a0, a1, a2, a3, a4, a5, a6, a7⟩ := hagree c
    rw [a0, a1, a2, a3, a4, a5, a6, a7]
    exact ref_eq_result m hpre c

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
